-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v4_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v4_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x768 : Shape := ⟨3, ![64, 256, 768]⟩
abbrev S64x256 : Shape := ⟨2, ![64, 256]⟩
abbrev S64x256x4 : Shape := ⟨3, ![64, 256, 4]⟩
abbrev S_ : Shape := ⟨0, ![]⟩

class Facts : Prop where
  bcast_S_S64x256x768 : S_.BroadcastsInDim S64x256x768 (![] : Fin 0 → Fin S64x256x768.rank)
  reducesTo_S64x256x768_S_d0_1_2 : S64x256x768.ReducesTo [0, 1, 2] S_
  h_S_ : 0 < S_.numel
  bcast_S_S64x256 : S_.BroadcastsInDim S64x256 (![] : Fin 0 → Fin S64x256.rank)
  reducesTo_S64x256_S_d0_1 : S64x256.ReducesTo [0, 1] S_

variable [Facts]

def fn {F : FTy → Type} [FloatOps F] (main_arg0 : FVec F S64x256x768 .f32) (main_arg1 : FVec F S64x256x768 .f32) (main_arg2 : FVec F S64x256 .f32) (main_arg3 : IVec S64x256x4 32) (main_arg4 : IVec S64x256x4 32) (main_arg5 : IVec S64x256 32) : IVec S_ 1 :=
  let main_v0 : FVec F S64x256x768 .f32 := Host.absf main_arg0
  let main_cst : FVec F S_ .f32 := constant S_ .f32 0x7F800000#32
  let main_v1 : FVec F S64x256x768 .f32 := broadcastInDim S64x256x768 ![] bcast_S_S64x256x768 main_cst
  let main_v2 : IVec S64x256x768 1 := cmpf .olt main_v0 main_v1
  let main_c : IVec S_ 1 := constantI S_ 1 1#1
  let main_v3 : IVec S_ 1 := (fun x v => Host.reduce IntOp.andi x v reducesTo_S64x256x768_S_d0_1_2 h_S_) main_v2 main_c
  let main_v4 : FVec F S64x256x768 .f32 := Host.absf main_arg1
  let main_cst_0 : FVec F S_ .f32 := constant S_ .f32 0x7F800000#32
  let main_v5 : FVec F S64x256x768 .f32 := broadcastInDim S64x256x768 ![] bcast_S_S64x256x768 main_cst_0
  let main_v6 : IVec S64x256x768 1 := cmpf .olt main_v4 main_v5
  let main_c_1 : IVec S_ 1 := constantI S_ 1 1#1
  let main_v7 : IVec S_ 1 := (fun x v => Host.reduce IntOp.andi x v reducesTo_S64x256x768_S_d0_1_2 h_S_) main_v6 main_c_1
  let main_v8 : IVec S_ 1 := andi main_v3 main_v7
  let main_v9 : FVec F S64x256 .f32 := Host.absf main_arg2
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  main_v13
-- ==== Kernel.lean ====
abbrev S64x256x768 : Shape := ⟨3, ![64, 256, 768]⟩
abbrev S64x256 : Shape := ⟨2, ![64, 256]⟩
abbrev S64x256x4 : Shape := ⟨3, ![64, 256, 4]⟩
abbrev S64x256x1 : Shape := ⟨3, ![64, 256, 1]⟩
abbrev S64x1x256 : Shape := ⟨3, ![64, 1, 256]⟩
abbrev S64x4x256 : Shape := ⟨3, ![64, 4, 256]⟩
abbrev S64x256x256 : Shape := ⟨3, ![64, 256, 256]⟩
abbrev S64x1x1 : Shape := ⟨3, ![64, 1, 1]⟩
abbrev S2x256x768 : Shape := ⟨3, ![2, 256, 768]⟩
abbrev S2x256x1 : Shape := ⟨3, ![2, 256, 1]⟩
abbrev S2x256x4 : Shape := ⟨3, ![2, 256, 4]⟩
abbrev S2x4x256 : Shape := ⟨3, ![2, 4, 256]⟩
abbrev S2x1x256 : Shape := ⟨3, ![2, 1, 256]⟩
abbrev S2x256x256 : Shape := ⟨3, ![2, 256, 256]⟩
abbrev S2x1x1 : Shape := ⟨3, ![2, 1, 1]⟩
abbrev S2x256 : Shape := ⟨2, ![2, 256]⟩
abbrev S2x1 : Shape := ⟨2, ![2, 1]⟩
abbrev S64 : Shape := ⟨1, ![64]⟩

abbrev nBuf : Space → Nat
  | .hbm => 13
  | .vmem => 18
  | .smem => 0
  | _ => 0

abbrev bufTy : (tb : Table) → Fin (tcTables nBuf tb) → BufTy
  | .hbm, ⟨0, _⟩ => ⟨S64x256x768, .f32⟩
  | .hbm, ⟨1, _⟩ => ⟨S64x256x768, .f32⟩
  | .hbm, ⟨2, _⟩ => ⟨S64x256, .f32⟩
  | .hbm, ⟨3, _⟩ => ⟨S64x256x4, .i32⟩
  | .hbm, ⟨4, _⟩ => ⟨S64x256x4, .i32⟩
  | .hbm, ⟨5, _⟩ => ⟨S64x256, .i32⟩
  | .hbm, ⟨6, _⟩ => ⟨S64x256x1, .f32⟩
  | .hbm, ⟨7, _⟩ => ⟨S64x256, .f32⟩
  | .hbm, ⟨8, _⟩ => ⟨S64x1x256, .f32⟩
  | .hbm, ⟨9, _⟩ => ⟨S64x4x256, .i32⟩
  | .hbm, ⟨10, _⟩ => ⟨S64x256x256, .f32⟩
  | .hbm, ⟨11, _⟩ => ⟨S64x1x1, .f32⟩
  | .hbm, ⟨12, _⟩ => ⟨S64, .f32⟩
  | .local _ .vmem, ⟨0, _⟩ => ⟨S2x256x768, .f32⟩
  | .local _ .vmem, ⟨1, _⟩ => ⟨S2x256x768, .f32⟩
  | .local _ .vmem, ⟨2, _⟩ => ⟨S2x256x768, .f32⟩
  | .local _ .vmem, ⟨3, _⟩ => ⟨S2x256x768, .f32⟩
  | .local _ .vmem, ⟨4, _⟩ => ⟨S2x256x1, .f32⟩
  | .local _ .vmem, ⟨5, _⟩ => ⟨S2x256x1, .f32⟩
  | .local _ .vmem, ⟨6, _⟩ => ⟨S2x256x4, .i32⟩
  | .local _ .vmem, ⟨7, _⟩ => ⟨S2x256x4, .i32⟩
  | .local _ .vmem, ⟨8, _⟩ => ⟨S2x256x4, .i32⟩
  | .local _ .vmem, ⟨9, _⟩ => ⟨S2x256x4, .i32⟩
  | .local _ .vmem, ⟨10, _⟩ => ⟨S2x4x256, .i32⟩
  | .local _ .vmem, ⟨11, _⟩ => ⟨S2x4x256, .i32⟩
  | .local _ .vmem, ⟨12, _⟩ => ⟨S2x1x256, .f32⟩
  | .local _ .vmem, ⟨13, _⟩ => ⟨S2x1x256, .f32⟩
  | .local _ .vmem, ⟨14, _⟩ => ⟨S2x256x256, .f32⟩
  | .local _ .vmem, ⟨15, _⟩ => ⟨S2x256x256, .f32⟩
  | .local _ .vmem, ⟨16, _⟩ => ⟨S2x1x1, .f32⟩
  | .local _ .vmem, ⟨17, _⟩ => ⟨S2x1x1, .f32⟩
  | _, _ => ⟨S64x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x256x4 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x256x4 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x4x256 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x1x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S64x256_S64x256x1_0_1 : S64x256.BroadcastsInDim S64x256x1 (![0, 1] : Fin 2 → Fin S64x256x1.rank)
  bcast_S64x256_S64x1x256_0_2 : S64x256.BroadcastsInDim S64x1x256 (![0, 2] : Fin 2 → Fin S64x1x256.rank)
  transposes_S64x256x4_S64x4x256_0_2_1 : S64x256x4.Transposes [0, 2, 1] S64x4x256
  inb_S2x256x4_S2x256x4_0_0_0 : ∀ a, (![0, 0, 0] : Fin 3 → Nat) a + S2x256x4.size a ≤ S2x256x4.size a
  h_S2x256x4 : 0 < S2x256x4.numel
  slices_S2x256x4_o0_0_0_S2x256x1 : S2x256x4.Slices ![0, 0, 0] S2x256x1
  slices_S2x256x4_o0_0_1_S2x256x1 : S2x256x4.Slices ![0, 0, 1] S2x256x1
  slices_S2x256x4_o0_0_2_S2x256x1 : S2x256x4.Slices ![0, 0, 2] S2x256x1
  slices_S2x256x4_o0_0_3_S2x256x1 : S2x256x4.Slices ![0, 0, 3] S2x256x1
  natLt_1_32 : 1 < 32
  bitsLt_bf16_f32 : FTy.bits .bf16 < FTy.bits .f32
  inb_S2x256x768_S2x256x768_0_0_0 : ∀ a, (![0, 0, 0] : Fin 3 → Nat) a + S2x256x768.size a ≤ S2x256x768.size a
  h_S2x256x768 : 0 < S2x256x768.numel
  broadcasts_S2x256x1_S2x256x768 : S2x256x1.Broadcasts S2x256x768
  inb_S2x4x256_S2x4x256_0_0_0 : ∀ a, (![0, 0, 0] : Fin 3 → Nat) a + S2x4x256.size a ≤ S2x4x256.size a
  h_S2x4x256 : 0 < S2x4x256.numel
  shapeCasts_S2x4x256_S2x4x256 : S2x4x256.ShapeCasts S2x4x256
  slices_S2x4x256_o0_0_0_S2x1x256 : S2x4x256.Slices ![0, 0, 0] S2x1x256
  broadcasts_S2x256x1_S2x256x256 : S2x256x1.Broadcasts S2x256x256
  broadcasts_S2x1x256_S2x256x256 : S2x1x256.Broadcasts S2x256x256
  slices_S2x4x256_o0_1_0_S2x1x256 : S2x4x256.Slices ![0, 1, 0] S2x1x256
  slices_S2x4x256_o0_2_0_S2x1x256 : S2x4x256.Slices ![0, 2, 0] S2x1x256
  slices_S2x4x256_o0_3_0_S2x1x256 : S2x4x256.Slices ![0, 3, 0] S2x1x256
  inb_S2x1x256_S2x1x256_0_0_0 : ∀ a, (![0, 0, 0] : Fin 3 → Nat) a + S2x1x256.size a ≤ S2x1x256.size a
  h_S2x1x256 : 0 < S2x1x256.numel
  shapeCasts_S2x1x256_S2x1x256 : S2x1x256.ShapeCasts S2x1x256
  reduces_S2x256x256_S2x256 : S2x256x256.Reduces [2] S2x256
  shapeCasts_S2x256_S2x256x1 : S2x256.ShapeCasts S2x256x1
  reduces_S2x1x256_S2x1 : S2x1x256.Reduces [2] S2x1
  shapeCasts_S2x1_S2x1x1 : S2x1.ShapeCasts S2x1x1
  broadcasts_S2x1x1_S2x256x1 : S2x1x1.Broadcasts S2x256x1
  inb_S2x256x1_S2x256x1_0_0_0 : ∀ a, (![0, 0, 0] : Fin 3 → Nat) a + S2x256x1.size a ≤ S2x256x1.size a
  h_S2x256x1 : 0 < S2x256x1.numel
  shapeCasts_S2x256x1_S2x256x1 : S2x256x1.ShapeCasts S2x256x1
  reduces_S2x256x1_S2x1 : S2x256x1.Reduces [1] S2x1
  inb_S2x256x256_S2x256x256_0_0_0 : ∀ a, (![0, 0, 0] : Fin 3 → Nat) a + S2x256x256.size a ≤ S2x256x256.size a
  h_S2x256x256 : 0 < S2x256x256.numel
  inb_S2x1x1_S2x1x1_0_0_0 : ∀ a, (![0, 0, 0] : Fin 3 → Nat) a + S2x1x1.size a ≤ S2x1x1.size a
  h_S2x1x1 : 0 < S2x1x1.numel
  shapeCasts_S64x1x1_S64 : S64x1x1.ShapeCasts S64
  dot_S2x256x768_S2x256x768_S2x256x256_2_2_1_1_0_0_wf : DotDims.WF S2x256x768 S2x256x768 S2x256x256 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x256x768.size a ≤ S64x256x768.size a
  hwx0_0 : ∀ i : grid0.Coords, EltTy.bits .f32 = 32 ∨ (Rect.block (s := S64x256x768) S2x256x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x256x768.size a ≤ S64x256x768.size a
  hwx0_1 : ∀ i : grid0.Coords, EltTy.bits .f32 = 32 ∨ (Rect.block (s := S64x256x768) S2x256x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x256x1.size a ≤ S64x256x1.size a
  hwx0_2 : ∀ i : grid0.Coords, EltTy.bits .f32 = 32 ∨ (Rect.block (s := S64x256x1) S2x256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x256x4.size a ≤ S64x256x4.size a
  hwx0_3 : ∀ i : grid0.Coords, EltTy.bits .i32 = 32 ∨ (Rect.block (s := S64x256x4) S2x256x4.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x256x4.size a ≤ S64x256x4.size a
  hwx0_4 : ∀ i : grid0.Coords, EltTy.bits .i32 = 32 ∨ (Rect.block (s := S64x256x4) S2x256x4.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x4x256.size a ≤ S64x4x256.size a
  hwx0_5 : ∀ i : grid0.Coords, EltTy.bits .i32 = 32 ∨ (Rect.block (s := S64x4x256) S2x4x256.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2x1x256.size a ≤ S64x1x256.size a
  hwx0_6 : ∀ i : grid0.Coords, EltTy.bits .f32 = 32 ∨ (Rect.block (s := S64x1x256) S2x1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2x256x256.size a ≤ S64x256x256.size a
  hwx0_7 : ∀ i : grid0.Coords, EltTy.bits .f32 = 32 ∨ (Rect.block (s := S64x256x256) S2x256x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2x1x1.size a ≤ S64x1x1.size a
  hwx0_8 : ∀ i : grid0.Coords, EltTy.bits .f32 = 32 ∨ (Rect.block (s := S64x1x1) S2x1x1.size (cc0_transform_8 i) (hinb0_8 i)).WholeWords (EltTy.packing .f32)

variable [Facts₀]

def dot_S2x256x768_S2x256x768_S2x256x256_2_2_1_1_0_0 : DotDims S2x256x768 S2x256x768 S2x256x256 where
  lhsContracting := [2]
  rhsContracting := [2]
  lhsNonContracting := [1]
  rhsNonContracting := [1]
  lhsBatch := [0]
  rhsBatch := [0]
  wf := dot_S2x256x768_S2x256x768_S2x256x256_2_2_1_1_0_0_wf

abbrev win0_0 : Pipeline.Window sig grid0 :=
  Pipeline.Window.ofSpec (Memref.whole main_arg0) S2x256x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x256x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2x256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2x256x4.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2x256x4.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S2x4x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S2x1x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_0) S2x256x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4_1) S2x1x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S64x256x768 : Shape := ⟨3, ![64, 256, 768]⟩
abbrev S64x256 : Shape := ⟨2, ![64, 256]⟩
abbrev S64x256x4 : Shape := ⟨3, ![64, 256, 4]⟩
abbrev S_ : Shape := ⟨0, ![]⟩
abbrev S64x256x1 : Shape := ⟨3, ![64, 256, 1]⟩
abbrev S64x256x256 : Shape := ⟨3, ![64, 256, 256]⟩
abbrev S64x256x1x4 : Shape := ⟨4, ![64, 256, 1, 4]⟩
abbrev S64x1x256x4 : Shape := ⟨4, ![64, 1, 256, 4]⟩
abbrev S64x256x256x4 : Shape := ⟨4, ![64, 256, 256, 4]⟩
abbrev S64x1x256 : Shape := ⟨3, ![64, 1, 256]⟩
abbrev S64 : Shape := ⟨1, ![64]⟩
abbrev S64x1 : Shape := ⟨2, ![64, 1]⟩

abbrev nBuf : Space → Nat
  | .hbm => 76
  | .vmem => 0
  | .smem => 0
  | _ => 0

abbrev bufTy : (tb : Table) → Fin (tcTables nBuf tb) → BufTy
  | .hbm, ⟨0, _⟩ => ⟨S64x256x768, .f32⟩
  | .hbm, ⟨1, _⟩ => ⟨S64x256x768, .f32⟩
  | .hbm, ⟨2, _⟩ => ⟨S64x256, .f32⟩
  | .hbm, ⟨3, _⟩ => ⟨S64x256x4, .i32⟩
  | .hbm, ⟨4, _⟩ => ⟨S64x256x4, .i32⟩
  | .hbm, ⟨5, _⟩ => ⟨S64x256, .i32⟩
  | .hbm, ⟨6, _⟩ => ⟨S_, .i32⟩
  | .hbm, ⟨7, _⟩ => ⟨S64x256x4, .i32⟩
  | .hbm, ⟨8, _⟩ => ⟨S64x256x4, .i1⟩
  | .hbm, ⟨9, _⟩ => ⟨S_, .i1⟩
  | .hbm, ⟨10, _⟩ => ⟨S64x256, .i1⟩
  | .hbm, ⟨11, _⟩ => ⟨S64x256, .i1⟩
  | .hbm, ⟨12, _⟩ => ⟨S64x256, .f32⟩
  | .hbm, ⟨13, _⟩ => ⟨S64x256x1, .f32⟩
  | .hbm, ⟨14, _⟩ => ⟨S64x256x768, .f32⟩
  | .hbm, ⟨15, _⟩ => ⟨S64x256x768, .f32⟩
  | .hbm, ⟨16, _⟩ => ⟨S_, .i32⟩
  | .hbm, ⟨17, _⟩ => ⟨S64x256x4, .i32⟩
  | .hbm, ⟨18, _⟩ => ⟨S64x256x4, .i1⟩
  | .hbm, ⟨19, _⟩ => ⟨S_, .i1⟩
  | .hbm, ⟨20, _⟩ => ⟨S64x256, .i1⟩
  | .hbm, ⟨21, _⟩ => ⟨S64x256, .i1⟩
  | .hbm, ⟨22, _⟩ => ⟨S64x256, .f32⟩
  | .hbm, ⟨23, _⟩ => ⟨S64x256x1, .f32⟩
  | .hbm, ⟨24, _⟩ => ⟨S64x256x768, .f32⟩
  | .hbm, ⟨25, _⟩ => ⟨S64x256x768, .f32⟩
  | .hbm, ⟨26, _⟩ => ⟨S64x256x256, .f32⟩
  | .hbm, ⟨27, _⟩ => ⟨S64x256x1x4, .i32⟩
  | .hbm, ⟨28, _⟩ => ⟨S64x1x256x4, .i32⟩
  | .hbm, ⟨29, _⟩ => ⟨S64x256x256x4, .i32⟩
  | .hbm, ⟨30, _⟩ => ⟨S64x256x256x4, .i32⟩
  | .hbm, ⟨31, _⟩ => ⟨S64x256x256x4, .i1⟩
  | .hbm, ⟨32, _⟩ => ⟨S_, .i1⟩
  | .hbm, ⟨33, _⟩ => ⟨S64x256x256, .i1⟩
  | .hbm, ⟨34, _⟩ => ⟨S64x256x256, .f32⟩
  | .hbm, ⟨35, _⟩ => ⟨S_, .f32⟩
  | .hbm, ⟨36, _⟩ => ⟨S64x256x256, .f32⟩
  | .hbm, ⟨37, _⟩ => ⟨S64x256x256, .f32⟩
  | .hbm, ⟨38, _⟩ => ⟨S_, .f32⟩
  | .hbm, ⟨39, _⟩ => ⟨S64x256x256, .f32⟩
  | .hbm, ⟨40, _⟩ => ⟨S64x256x256, .f32⟩
  | .hbm, ⟨41, _⟩ => ⟨S64x256x256, .f32⟩
  | .hbm, ⟨42, _⟩ => ⟨S64x256, .f32⟩
  | .hbm, ⟨43, _⟩ => ⟨S64x1x256, .f32⟩
  | .hbm, ⟨44, _⟩ => ⟨S64x256x256, .f32⟩
  | .hbm, ⟨45, _⟩ => ⟨S64x256x256, .f32⟩
  | .hbm, ⟨46, _⟩ => ⟨S_, .f32⟩
  | .hbm, ⟨47, _⟩ => ⟨S64x256, .f32⟩
  | .hbm, ⟨48, _⟩ => ⟨S64x256, .f32⟩
  | .hbm, ⟨49, _⟩ => ⟨S_, .f32⟩
  | .hbm, ⟨50, _⟩ => ⟨S64, .f32⟩
  | .hbm, ⟨51, _⟩ => ⟨S64x1, .f32⟩
  | .hbm, ⟨52, _⟩ => ⟨S_, .f32⟩
  | .hbm, ⟨53, _⟩ => ⟨S64x256, .f32⟩
  | .hbm, ⟨54, _⟩ => ⟨S64x256, .f32⟩
  | .hbm, ⟨55, _⟩ => ⟨S_, .f32⟩
  | .hbm, ⟨56, _⟩ => ⟨S64x1, .f32⟩
  | .hbm, ⟨57, _⟩ => ⟨S64x1, .f32⟩
  | .hbm, ⟨58, _⟩ => ⟨S_, .f32⟩
  | .hbm, ⟨59, _⟩ => ⟨S64x1, .f32⟩
  | .hbm, ⟨60, _⟩ => ⟨S64x1, .f32⟩
  | .hbm, ⟨61, _⟩ => ⟨S_, .f32⟩
  | .hbm, ⟨62, _⟩ => ⟨S64x1, .f32⟩
  | .hbm, ⟨63, _⟩ => ⟨S64x1, .f32⟩
  | .hbm, ⟨64, _⟩ => ⟨S_, .f32⟩
  | .hbm, ⟨65, _⟩ => ⟨S64x1, .f32⟩
  | .hbm, ⟨66, _⟩ => ⟨S64x1, .f32⟩
  | .hbm, ⟨67, _⟩ => ⟨S64x256, .f32⟩
  | .hbm, ⟨68, _⟩ => ⟨S64x256, .f32⟩
  | .hbm, ⟨69, _⟩ => ⟨S_, .f32⟩
  | .hbm, ⟨70, _⟩ => ⟨S64x256, .f32⟩
  | .hbm, ⟨71, _⟩ => ⟨S64x256, .f32⟩
  | .hbm, ⟨72, _⟩ => ⟨S64x256, .f32⟩
  | .hbm, ⟨73, _⟩ => ⟨S64x256, .f32⟩
  | .hbm, ⟨74, _⟩ => ⟨S_, .f32⟩
  | .hbm, ⟨75, _⟩ => ⟨S64, .f32⟩
  | _, _ => ⟨S64x256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_3 : Ref sig .tc := ⟨.hbm, 32, rfl⟩
abbrev main_v22 : Ref sig .tc := ⟨.hbm, 33, rfl⟩
abbrev main_v23 : Ref sig .tc := ⟨.hbm, 34, rfl⟩
abbrev main_cst : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_cst_11 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_12 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_13 : Ref sig .tc := ⟨.hbm, 74, rfl⟩
abbrev main_v53 : Ref sig .tc := ⟨.hbm, 75, rfl⟩

abbrev nD : Nat := 1
abbrev τ : Topo := Topo.v7x

variable {F : FTy → Type} [FloatOps F]

class Facts₀ : Prop where
  bcast_S_S64x256x4 : S_.BroadcastsInDim S64x256x4 (![] : Fin 0 → Fin S64x256x4.rank)
  reducesTo_S64x256x4_S64x256_d2 : S64x256x4.ReducesTo [2] S64x256
  h_S_ : 0 < S_.numel
  bcast_S64x256_S64x256x1_0_1 : S64x256.BroadcastsInDim S64x256x1 (![0, 1] : Fin 2 → Fin S64x256x1.rank)
  bcast_S64x256x1_S64x256x768_0_1_2 : S64x256x1.BroadcastsInDim S64x256x768 (![0, 1, 2] : Fin 3 → Fin S64x256x768.rank)
  bcast_S64x256x4_S64x256x1x4_0_1_3 : S64x256x4.BroadcastsInDim S64x256x1x4 (![0, 1, 3] : Fin 3 → Fin S64x256x1x4.rank)
  bcast_S64x256x4_S64x1x256x4_0_2_3 : S64x256x4.BroadcastsInDim S64x1x256x4 (![0, 2, 3] : Fin 3 → Fin S64x1x256x4.rank)
  bcast_S64x256x1x4_S64x256x256x4_0_1_2_3 : S64x256x1x4.BroadcastsInDim S64x256x256x4 (![0, 1, 2, 3] : Fin 4 → Fin S64x256x256x4.rank)
  bcast_S64x1x256x4_S64x256x256x4_0_1_2_3 : S64x1x256x4.BroadcastsInDim S64x256x256x4 (![0, 1, 2, 3] : Fin 4 → Fin S64x256x256x4.rank)
  reducesTo_S64x256x256x4_S64x256x256_d3 : S64x256x256x4.ReducesTo [3] S64x256x256
  bcast_S_S64x256x256 : S_.BroadcastsInDim S64x256x256 (![] : Fin 0 → Fin S64x256x256.rank)
  bcast_S64x256_S64x1x256_0_2 : S64x256.BroadcastsInDim S64x1x256 (![0, 2] : Fin 2 → Fin S64x1x256.rank)
  bcast_S64x1x256_S64x256x256_0_1_2 : S64x1x256.BroadcastsInDim S64x256x256 (![0, 1, 2] : Fin 3 → Fin S64x256x256.rank)
  reducesTo_S64x256x256_S64x256_d2 : S64x256x256.ReducesTo [2] S64x256
  reducesTo_S64x256_S64_d1 : S64x256.ReducesTo [1] S64
  bcast_S64_S64x1_0 : S64.BroadcastsInDim S64x1 (![0] : Fin 1 → Fin S64x1.rank)
  bcast_S_S64x256 : S_.BroadcastsInDim S64x256 (![] : Fin 0 → Fin S64x256.rank)
  bcast_S_S64x1 : S_.BroadcastsInDim S64x1 (![] : Fin 0 → Fin S64x1.rank)
  bcast_S64x1_S64x256_0_1 : S64x1.BroadcastsInDim S64x256 (![0, 1] : Fin 2 → Fin S64x256.rank)
  dot_S64x256x768_S64x256x768_S64x256x256_2_2_1_1_0_0_wf : DotDims.WF S64x256x768 S64x256x768 S64x256x256 [2] [2] [1] [1] [0] [0]

variable [Facts₀]

def dot_S64x256x768_S64x256x768_S64x256x256_2_2_1_1_0_0 : DotDims S64x256x768 S64x256x768 S64x256x256 where
  lhsContracting := [2]
  rhsContracting := [2]
  lhsNonContracting := [1]
  rhsNonContracting := [1]
  lhsBatch := [0]
  rhsBatch := [0]
  wf := dot_S64x256x768_S64x256x768_S64x256x256_2_2_1_1_0_0_wf

class Facts : Prop extends Facts₀ where

variable [Facts]
-- ==== Proof.Scoring.lean ====
/-
  The scoring layer, as mathematics on the extended reals.

  For one batch row the inputs are: query windows `Q q h` and document windows `D d h` (256 windows of 768 features each),
  their id windows `Qi q k`, `Di d k` (four 32-bit ids per window), the document term frequencies `tf d` and the query
  term weights `w q`. A window whose four ids are all zero is a null window and is masked out (`keep`). The overlap of a
  query window and a document window is the inner product of the two masked feature rows (`overlap`); two windows match
  exactly when their four ids agree (`same`). The blended term frequency of a query window is the sum over document
  windows of (overlap · c₁ + same · c₂) · tf (`termFreq`), the document length is the sum of the term frequencies
  (`docLen`), the saturated weight is e·c₃ / (e + c₄·(c₅ + c₆·dl / 50) + c₇) (`weight`), and the score of the row is the
  sum over query windows of w · weight (`score`). The seven constants are kept as the binary words both programs carry;
  nothing here depends on their values.

  Everything is stated over functions of `Fin` coordinates so that a block of two batch rows and the whole array of
  sixty-four read the same definitions; `overlapAt` and `scoreAt` are the two results as functions of the six argument
  arrays at a batch row.
-/
import Idealize.ShloMosaic.PureOps.Ideal
import Idealize.ShloMosaic.Lib.ValueIdx

noncomputable section

namespace Cert.Scoring

open Idealize.ShloMosaic Idealize.ShloMosaic.ValueIdx

/-- The null-window mask: `0` when all four ids are zero, `1` otherwise. -/
def keep (ids : Fin 4 → BitVec 32) : EReal := if ∀ k, ids k = 0#32 then 0 else 1

/-- Exact match of two id windows: `1` when the four ids agree, `0` otherwise. -/
def same (u v : Fin 4 → BitVec 32) : EReal := if ∀ k, u k = v k then 1 else 0

/-- The inner product of a masked query row and a masked document row. -/
def overlap (qr dr : Fin 768 → EReal) (qi di : Fin 4 → BitVec 32) : EReal :=
  ∑ h : Fin 768, (qr h * keep qi) * (dr h * keep di)

/-- The blended term frequency of one query window against all document windows. -/
def termFreq (qr : Fin 768 → EReal) (D : Fin 256 → Fin 768 → EReal) (qi : Fin 4 → BitVec 32) (Di : Fin 256 → Fin 4 → BitVec 32)
    (tf : Fin 256 → EReal) : EReal :=
  ∑ d : Fin 256, (overlap qr (D d) qi (Di d) * Ideal.ofBits .f32 0x39088889#32 + same qi (Di d) * Ideal.ofBits .f32 0x3F666666#32) * tf d

/-- The document length. -/
def docLen (tf : Fin 256 → EReal) : EReal := ∑ d : Fin 256, tf d

/-- The saturated weight of a blended term frequency `e` in a document of length `dl`. -/
def weight (e dl : EReal) : EReal :=
  Ideal.div (e * Ideal.ofBits .f32 0x3F8CCCCD#32)
    ((e + Ideal.ofBits .f32 0x3DCCCCCD#32 * (Ideal.ofBits .f32 0xBE4CCCCD#32
        + Ideal.div (Ideal.ofBits .f32 0x3F99999A#32 * dl) (Ideal.ofBits .f32 0x42480000#32)))
      + Ideal.ofBits .f32 0x322BCC77#32)

/-- The score of one batch row. -/
def score (Q D : Fin 256 → Fin 768 → EReal) (Qi Di : Fin 256 → Fin 4 → BitVec 32) (tf w : Fin 256 → EReal) : EReal :=
  ∑ q : Fin 256, w q * weight (termFreq (Q q) D (Qi q) Di tf) (docLen tf)

/-! ## The two results as functions of the six argument arrays -/

/-- The overlap matrix at batch row `b`, query window `q`, document window `d`. -/
def overlapAt (x0 x1 : (⟨3, ![64, 256, 768]⟩ : Shape).Idx → EReal) (x3 x4 : (⟨3, ![64, 256, 4]⟩ : Shape).Idx → BitVec 32)
    (b : Fin 64) (q d : Fin 256) : EReal :=
  overlap (fun h => x0 (ix3 b q h)) (fun h => x1 (ix3 b d h)) (fun k => x3 (ix3 b q k)) (fun k => x4 (ix3 b d k))

/-- The score of batch row `b`; the term frequencies are the integer array read as reals. -/
def scoreAt (x0 x1 : (⟨3, ![64, 256, 768]⟩ : Shape).Idx → EReal) (x2 : (⟨2, ![64, 256]⟩ : Shape).Idx → EReal)
    (x3 x4 : (⟨3, ![64, 256, 4]⟩ : Shape).Idx → BitVec 32) (x5 : (⟨2, ![64, 256]⟩ : Shape).Idx → BitVec 32) (b : Fin 64) : EReal :=
  score (fun q h => x0 (ix3 b q h)) (fun d h => x1 (ix3 b d h)) (fun q k => x3 (ix3 b q k)) (fun d k => x4 (ix3 b d k))
    (fun d => FloatOps.sitofp (F := Ideal) .f32 (x5 (ix2 b d))) (fun q => x2 (ix2 b q))

/-- The overlap matrix as a whole array. -/
def overlapArr (x0 x1 : (⟨3, ![64, 256, 768]⟩ : Shape).Idx → EReal) (x3 x4 : (⟨3, ![64, 256, 4]⟩ : Shape).Idx → BitVec 32) :
    (⟨3, ![64, 256, 256]⟩ : Shape).Idx → EReal :=
  fun i => overlapAt x0 x1 x3 x4 (i 0) (i 1) (i 2)

/-- The scores as a whole array. -/
def scoreArr (x0 x1 : (⟨3, ![64, 256, 768]⟩ : Shape).Idx → EReal) (x2 : (⟨2, ![64, 256]⟩ : Shape).Idx → EReal)
    (x3 x4 : (⟨3, ![64, 256, 4]⟩ : Shape).Idx → BitVec 32) (x5 : (⟨2, ![64, 256]⟩ : Shape).Idx → BitVec 32) :
    (⟨1, ![64]⟩ : Shape).Idx → EReal :=
  fun i => scoreAt x0 x1 x2 x3 x4 x5 (i 0)

end Cert.Scoring

end
-- ==== Proof.ScoringBits.lean ====
/-
  One-bit words read as reals: a comparison bit that is set exactly when a window is null gives `keep`, one that is set
  exactly when two windows agree gives `same`.
-/
import proofs.«123404_j20572893348512_2_alg».proof.Proof.Scoring
import Idealize.ShloMosaic.Lib.Affine

noncomputable section

namespace Cert.Scoring

open Idealize.ShloMosaic

/-- A one-bit word is `0` or `1`. -/
theorem bit_cases (b : BitVec 1) : b = 0#1 ∨ b = 1#1 := by revert b; decide

/-- A bit set exactly when all four ids are zero selects `0` over `1` as `keep` does. -/
theorem keep_of_bit (ids : Fin 4 → BitVec 32) (b : BitVec 1) (h : b = 1#1 ↔ ∀ k, ids k = 0#32) :
    (if b = 1#1 then (0 : EReal) else 1) = keep ids := by
  unfold keep
  by_cases hz : ∀ k, ids k = 0#32
  · rw [if_pos (h.2 hz), if_pos hz]
  · rw [if_neg (fun hb => hz (h.1 hb)), if_neg hz]

/-- A bit set exactly when the four ids agree selects `1` over `0` as `same` does. -/
theorem same_of_bit (u v : Fin 4 → BitVec 32) (b : BitVec 1) (h : b = 1#1 ↔ ∀ k, u k = v k) :
    (if b = 1#1 then (1 : EReal) else 0) = same u v := by
  unfold same
  by_cases hz : ∀ k, u k = v k
  · rw [if_pos (h.2 hz), if_pos hz]
  · rw [if_neg (fun hb => hz (h.1 hb)), if_neg hz]

/-- The conjunction of four bits, folded from the left, is set exactly when all four are. -/
theorem and4_eq_one (c : Fin 4 → BitVec 1) :
    IntOp.andi (IntOp.andi (IntOp.andi (c 0) (c 1)) (c 2)) (c 3) = 1#1 ↔ ∀ k, c k = 1#1 := by
  simp only [IntOp.andi_eq_one]
  constructor
  · rintro ⟨⟨⟨h0, h1⟩, h2⟩, h3⟩ k
    fin_cases k
    exacts [h0, h1, h2, h3]
  · intro h
    exact ⟨⟨⟨h 0, h 1⟩, h 2⟩, h 3⟩

/-- The negation of a bit, widened to 32 bits and read as a signed integer, is `0` when the bit is set and `1` when
    it is clear. -/
theorem real_of_not_bit (b : BitVec 1) :
    FloatOps.sitofp (F := Ideal) .f32 ((IntOp.xori b 1#1).setWidth 32) = if b = 1#1 then (0 : EReal) else 1 := by
  rcases bit_cases b with rfl | rfl
  · rw [if_neg (by decide)]
    show (((((IntOp.xori 0#1 1#1).setWidth 32).toInt : ℤ) : ℝ) : EReal) = 1
    rw [show ((IntOp.xori 0#1 1#1).setWidth 32).toInt = 1 by decide]; norm_num
  · rw [if_pos rfl]
    show (((((IntOp.xori 1#1 1#1).setWidth 32).toInt : ℤ) : ℝ) : EReal) = 0
    rw [show ((IntOp.xori 1#1 1#1).setWidth 32).toInt = 0 by decide]; norm_num

/-- A bit widened to 32 bits and read as a signed integer is `1` when set and `0` when clear. -/
theorem real_of_bit (b : BitVec 1) :
    FloatOps.sitofp (F := Ideal) .f32 (b.setWidth 32) = if b = 1#1 then (1 : EReal) else 0 := by
  rcases bit_cases b with rfl | rfl
  · rw [if_neg (by decide)]
    show (((((0#1 : BitVec 1).setWidth 32).toInt : ℤ) : ℝ) : EReal) = 0
    rw [show ((0#1 : BitVec 1).setWidth 32).toInt = 0 by decide]; norm_num
  · rw [if_pos rfl]
    show (((((1#1 : BitVec 1).setWidth 32).toInt : ℤ) : ℝ) : EReal) = 1
    rw [show ((1#1 : BitVec 1).setWidth 32).toInt = 1 by decide]; norm_num

end Cert.Scoring

end
-- ==== Proof.RefMask.lean ====
/-
  The integer masks of the reference program, read at an index.

  A reduction by `and` along one axis, started from the bit 1, is 1 exactly when every bit along that axis is 1. The
  reference reduces the comparisons "id = 0" over a window's four ids (the null-window test, once for the query ids and
  once for the document ids) and the comparisons "query id = document id" over the four ids of a pair of windows (the
  exact match). Negated and read as a real, the first is the mask `keep`; read as a real, the second is `same`.
-/
import proofs.«123404_j20572893348512_2_alg».proof.Proof.Gen.ReferenceIdeal.Read
import proofs.«123404_j20572893348512_2_alg».proof.Proof.ScoringBits
import Idealize.ShloMosaic.Lib.ReduceAll

noncomputable section

namespace Cert.ReferenceIdeal.Rows

open Idealize.ShloMosaic Idealize.ShloMosaic.ValueIdx Cert.ReferenceIdeal Cert.Scoring

/-! ## Bits -/

/-- A fold by `and` from the bit 1 over a finite set of bits is 1 exactly when every bit is 1. -/
theorem fold_andi_eq_one {ι : Type} [DecidableEq ι] (s : Finset ι) (f : ι → BitVec 1) :
    s.fold IntOp.andi 1#1 f = 1#1 ↔ ∀ k ∈ s, f k = 1#1 := by
  induction s using Finset.induction_on with
  | empty => simp
  | insert a s ha ih => rw [Finset.fold_insert ha, IntOp.andi_eq_one, ih, Finset.forall_mem_insert]

/-- A bit read as an unsigned integer is the real 1 when set and 0 when clear. -/
theorem uitofp_bit (r : BitVec 1) : FloatOps.uitofp (F := Ideal) .f32 r = if r = 1#1 then (1 : EReal) else 0 := by
  rcases bit_cases r with rfl | rfl
  · rw [if_neg (by decide)]
    show ((((0#1 : BitVec 1).toNat : ℕ) : ℝ) : EReal) = 0
    rw [show (0#1 : BitVec 1).toNat = 0 by decide]; norm_num
  · rw [if_pos rfl]
    show ((((1#1 : BitVec 1).toNat : ℕ) : ℝ) : EReal) = 1
    rw [show (1#1 : BitVec 1).toNat = 1 by decide]; norm_num

/-- The complement of a bit read as an unsigned integer is the real 0 when the bit is set and 1 when it is clear. -/
theorem uitofp_not_bit (r : BitVec 1) : FloatOps.uitofp (F := Ideal) .f32 (~~~r) = if r = 1#1 then (0 : EReal) else 1 := by
  rcases bit_cases r with rfl | rfl
  · rw [if_neg (by decide), show ~~~(0#1 : BitVec 1) = 1#1 by decide, uitofp_bit, if_pos rfl]
  · rw [if_pos rfl, show ~~~(1#1 : BitVec 1) = 0#1 by decide, uitofp_bit, if_neg (by decide)]

/-! ## A reduction by `and` along one axis -/

/-- A one-axis reduction by `and` whose initial value is the bit 1 is 1 at `j` exactly when the operand is 1 at `j` with
    every coordinate inserted on the reduced axis. -/
theorem reduce_andi_eq_one_iff {s t u : Shape} {a : Fin s.rank} (x : s.Idx → BitVec 1) (init : u.Idx → BitVec 1)
    (h' : s.ReducesTo [a] t) (h : s.Reduces [a] t) (hu : 0 < u.numel) (hinit : init (Shape.Idx.first hu) = 1#1) (j : t.Idx) :
    Host.reduce IntOp.andi x init h' hu j = 1#1 ↔ ∀ k : Fin (s.size a), x (h.lift j k) = 1#1 := by
  rw [Host.reduce_eq_fold_single IntOp.andi x init h' h hu j, hinit, fold_andi_eq_one]
  simp

/-! ## The two reduced shapes: the index over a result index with a coordinate inserted on the last axis -/

/-- Over `(b, q)` of the 64×256 result, coordinate `k` on the reduced id axis is `(b, q, k)`. -/
theorem lift_ids (h : S64x256x4.Reduces [2] S64x256) (b : Fin 64) (q : Fin 256) (k : Fin 4) :
    h.lift (ix2 b q) k = ix3 b q k := by
  funext c
  apply Fin.ext
  match c with
  | ⟨0, _⟩ => rfl
  | ⟨1, _⟩ => rfl
  | ⟨2, _⟩ => rfl

/-- Over `(b, q, d)` of the 64×256×256 result, coordinate `k` on the reduced id axis is `(b, q, d, k)`. -/
theorem lift_pair (h : S64x256x256x4.Reduces [3] S64x256x256) (b : Fin 64) (q d : Fin 256) (k : Fin 4) :
    h.lift (ix3 b q d) k = ix4 b q d k := by
  funext c
  apply Fin.ext
  match c with
  | ⟨0, _⟩ => rfl
  | ⟨1, _⟩ => rfl
  | ⟨2, _⟩ => rfl
  | ⟨3, _⟩ => rfl

/-- The reduction over a window's four ids is 1 at `(b, q)` exactly when the four bits at `(b, q, ·)` are 1. -/
theorem reduce_ids_eq_one_iff (v : S64x256x4.Idx → BitVec 1) (init : S_.Idx → BitVec 1) (h' : S64x256x4.ReducesTo [2] S64x256)
    (hu : 0 < S_.numel) (hinit : init (Shape.Idx.first hu) = 1#1) (b : Fin 64) (q : Fin 256) :
    Host.reduce IntOp.andi v init h' hu (ix2 b q) = 1#1 ↔ ∀ k : Fin 4, v (ix3 b q k) = 1#1 := by
  have h : S64x256x4.Reduces [2] S64x256 := by decide
  rw [reduce_andi_eq_one_iff v init h' h hu hinit]
  exact forall_congr' fun k => iff_of_eq (congrArg (fun i => v i = 1#1) (lift_ids h b q k))

/-- The reduction over a pair of windows' four ids is 1 at `(b, q, d)` exactly when the four bits at `(b, q, d, ·)` are 1. -/
theorem reduce_pair_eq_one_iff (v : S64x256x256x4.Idx → BitVec 1) (init : S_.Idx → BitVec 1)
    (h' : S64x256x256x4.ReducesTo [3] S64x256x256) (hu : 0 < S_.numel) (hinit : init (Shape.Idx.first hu) = 1#1)
    (b : Fin 64) (q d : Fin 256) :
    Host.reduce IntOp.andi v init h' hu (ix3 b q d) = 1#1 ↔ ∀ k : Fin 4, v (ix4 b q d k) = 1#1 := by
  have h : S64x256x256x4.Reduces [3] S64x256x256 := by decide
  rw [reduce_andi_eq_one_iff v init h' h hu hinit]
  exact forall_congr' fun k => iff_of_eq (congrArg (fun i => v i = 1#1) (lift_pair h b q d k))

end Cert.ReferenceIdeal.Rows

end
-- ==== Proof.RefMaskAt.lean ====
/-
  The reference's three masks at an index.

  At batch row `b`: the query-side null test at window `q` compares the four ids `x3 (b, q, ·)` with zero, the
  document-side one the four ids `x4 (b, d, ·)`, and the exact match at `(q, d)` compares `x3 (b, q, k)` with
  `x4 (b, d, k)` for the four `k`. Each reduced bit is 1 exactly when its four comparisons hold, so the first two, negated
  and read as reals, are `keep` of the id window, and the third, read as a real, is `same` of the two id windows.
-/
import proofs.«123404_j20572893348512_2_alg».proof.Proof.RefMask

noncomputable section

namespace Cert.ReferenceIdeal.Rows

open Idealize.ShloMosaic Idealize.ShloMosaic.ValueIdx Cert.ReferenceIdeal Cert.Scoring

/-- The query-side null bit at `(b, q)` is set exactly when the four query ids there are zero. -/
theorem null_q_iff (x3 : (⟨S64x256x4, .i32⟩ : BufTy).Contents (Elt Ideal)) (b : Fin 64) (q : Fin 256) :
    Read.val_main_v2 (F := Ideal) x3 (ix2 b q) = 1#1 ↔ ∀ k : Fin 4, x3 (ix3 b q k) = 0#32 := by
  unfold Read.val_main_v2
  rw [reduce_ids_eq_one_iff _ _ _ _ rfl b q]
  refine forall_congr' fun k => ?_
  rw [Read.val_main_v1_apply, Read.val_main_v0_apply, Read.val_main_c_apply, IntOp.cmpi_eq]

/-- The document-side null bit at `(b, d)` is set exactly when the four document ids there are zero. -/
theorem null_d_iff (x4 : (⟨S64x256x4, .i32⟩ : BufTy).Contents (Elt Ideal)) (b : Fin 64) (d : Fin 256) :
    Read.val_main_v10 (F := Ideal) x4 (ix2 b d) = 1#1 ↔ ∀ k : Fin 4, x4 (ix3 b d k) = 0#32 := by
  unfold Read.val_main_v10
  rw [reduce_ids_eq_one_iff _ _ _ _ rfl b d]
  refine forall_congr' fun k => ?_
  rw [Read.val_main_v9_apply, Read.val_main_v8_apply, Read.val_main_c_1_apply, IntOp.cmpi_eq]

/-- The query-side mask at `(b, q)` is `keep` of the query id window. -/
theorem mask_q (x3 : (⟨S64x256x4, .i32⟩ : BufTy).Contents (Elt Ideal)) (b : Fin 64) (q : Fin 256) :
    Read.val_main_v4 (F := Ideal) x3 (ix2 b q) = keep (fun k => x3 (ix3 b q k)) := by
  rw [Read.val_main_v4_apply, Read.val_main_v3_apply, uitofp_not_bit]
  exact keep_of_bit _ _ (null_q_iff x3 b q)

/-- The document-side mask at `(b, d)` is `keep` of the document id window. -/
theorem mask_d (x4 : (⟨S64x256x4, .i32⟩ : BufTy).Contents (Elt Ideal)) (b : Fin 64) (d : Fin 256) :
    Read.val_main_v12 (F := Ideal) x4 (ix2 b d) = keep (fun k => x4 (ix3 b d k)) := by
  rw [Read.val_main_v12_apply, Read.val_main_v11_apply, uitofp_not_bit]
  exact keep_of_bit _ _ (null_d_iff x4 b d)

/-- The query ids broadcast along the document axis: at `(b, q, d, k)` they are `x3 (b, q, k)`. -/
theorem ids_q_at (x3 : (⟨S64x256x4, .i32⟩ : BufTy).Contents (Elt Ideal)) (b : Fin 64) (q d : Fin 256) (k : Fin 4) :
    Read.val_main_v19 (F := Ideal) x3 (ix4 b q d k) = x3 (ix3 b q k) := by
  rw [Read.val_main_v19_apply, Read.val_main_v17_apply]
  exact congrArg x3 (funext fun a => Fin.ext (by match a with | ⟨0, _⟩ => rfl | ⟨1, _⟩ => rfl | ⟨2, _⟩ => rfl))

/-- The document ids broadcast along the query axis: at `(b, q, d, k)` they are `x4 (b, d, k)`. -/
theorem ids_d_at (x4 : (⟨S64x256x4, .i32⟩ : BufTy).Contents (Elt Ideal)) (b : Fin 64) (q d : Fin 256) (k : Fin 4) :
    Read.val_main_v20 (F := Ideal) x4 (ix4 b q d k) = x4 (ix3 b d k) := by
  rw [Read.val_main_v20_apply, Read.val_main_v18_apply]
  exact congrArg x4 (funext fun a => Fin.ext (by match a with | ⟨0, _⟩ => rfl | ⟨1, _⟩ => rfl | ⟨2, _⟩ => rfl))

/-- The exact-match bit at `(b, q, d)` is set exactly when the two id windows agree. -/
theorem match_iff (x3 x4 : (⟨S64x256x4, .i32⟩ : BufTy).Contents (Elt Ideal)) (b : Fin 64) (q d : Fin 256) :
    Read.val_main_v22 (F := Ideal) x3 x4 (ix3 b q d) = 1#1 ↔ ∀ k : Fin 4, x3 (ix3 b q k) = x4 (ix3 b d k) := by
  unfold Read.val_main_v22
  rw [reduce_pair_eq_one_iff _ _ _ _ rfl b q d]
  refine forall_congr' fun k => ?_
  rw [Read.val_main_v21_apply, ids_q_at, ids_d_at, IntOp.cmpi_eq]

/-- The exact match at `(b, q, d)`, as a real, is `same` of the two id windows. -/
theorem match_at (x3 x4 : (⟨S64x256x4, .i32⟩ : BufTy).Contents (Elt Ideal)) (b : Fin 64) (q d : Fin 256) :
    Read.val_main_v23 (F := Ideal) x3 x4 (ix3 b q d) = same (fun k => x3 (ix3 b q k)) (fun k => x4 (ix3 b d k)) := by
  rw [Read.val_main_v23_apply, uitofp_bit]
  exact same_of_bit _ _ _ (match_iff x3 x4 b q d)

end Cert.ReferenceIdeal.Rows

end
-- ==== Proof.RefOverlap.lean ====
/-
  The reference's first result: the overlap matrix.

  The reference multiplies each feature row by its window's mask (the mask is a column, broadcast along the 768 features)
  and contracts the two masked arrays over the feature axis, batch row by batch row. At `(b, q, d)` that is the sum over
  the 768 features of (query feature · query mask) · (document feature · document mask): `overlap` of the two rows and
  the two id windows, term by term.
-/
import proofs.«123404_j20572893348512_2_alg».proof.Proof.RefMaskAt

noncomputable section

namespace Cert.ReferenceIdeal.Rows

open Idealize.ShloMosaic Idealize.ShloMosaic.ValueIdx Cert.ReferenceIdeal Cert.Scoring

/-- The masked query array at `(b, q, h)`: the feature times the window's mask. -/
theorem masked_q_at (x0 : (⟨S64x256x768, .f32⟩ : BufTy).Contents (Elt Ideal)) (x3 : (⟨S64x256x4, .i32⟩ : BufTy).Contents (Elt Ideal))
    (b : Fin 64) (q : Fin 256) (h : Fin 768) :
    Read.val_main_v7 (F := Ideal) x0 x3 (ix3 b q h) = x0 (ix3 b q h) * keep (fun k => x3 (ix3 b q k)) := by
  have e : Read.idx_main_v5 (Read.idx_main_v6 (ix3 b q h)) = ix2 b q :=
    funext fun a => Fin.ext (by match a with | ⟨0, _⟩ => rfl | ⟨1, _⟩ => rfl)
  rw [Read.val_main_v7_apply, Read.val_main_v6_apply, Read.val_main_v5_apply, e, mask_q]
  rfl

/-- The masked document array at `(b, d, h)`: the feature times the window's mask. -/
theorem masked_d_at (x1 : (⟨S64x256x768, .f32⟩ : BufTy).Contents (Elt Ideal)) (x4 : (⟨S64x256x4, .i32⟩ : BufTy).Contents (Elt Ideal))
    (b : Fin 64) (d : Fin 256) (h : Fin 768) :
    Read.val_main_v15 (F := Ideal) x1 x4 (ix3 b d h) = x1 (ix3 b d h) * keep (fun k => x4 (ix3 b d k)) := by
  have e : Read.idx_main_v13 (Read.idx_main_v14 (ix3 b d h)) = ix2 b d :=
    funext fun a => Fin.ext (by match a with | ⟨0, _⟩ => rfl | ⟨1, _⟩ => rfl)
  rw [Read.val_main_v15_apply, Read.val_main_v14_apply, Read.val_main_v13_apply, e, mask_d]
  rfl

/-- The contraction's left operand index at `(b, q, d)`, feature `h`, is `(b, q, h)`. -/
theorem lidx_at (b : Fin 64) (q d : Fin 256) (h : Fin 768) : Read.lidx_main_v16 (ix3 b q d) h = ix3 b q h :=
  funext fun a => Fin.ext (by match a with | ⟨0, _⟩ => rfl | ⟨1, _⟩ => rfl | ⟨2, _⟩ => rfl)

/-- The contraction's right operand index at `(b, q, d)`, feature `h`, is `(b, d, h)`. -/
theorem ridx_at (b : Fin 64) (q d : Fin 256) (h : Fin 768) : Read.ridx_main_v16 (ix3 b q d) h = ix3 b d h :=
  funext fun a => Fin.ext (by match a with | ⟨0, _⟩ => rfl | ⟨1, _⟩ => rfl | ⟨2, _⟩ => rfl)

/-- The reference's overlap matrix at `(b, q, d)` is the overlap of query window `q` and document window `d` of row `b`. -/
theorem ref_overlap (x0 x1 : (⟨S64x256x768, .f32⟩ : BufTy).Contents (Elt Ideal)) (x3 x4 : (⟨S64x256x4, .i32⟩ : BufTy).Contents (Elt Ideal))
    (b : Fin 64) (q d : Fin 256) :
    Read.val_main_v16 (F := Ideal) x0 x1 x3 x4 (ix3 b q d) = overlapAt x0 x1 x3 x4 b q d := by
  rw [Read.val_main_v16_apply]
  unfold overlapAt overlap
  refine Finset.sum_congr rfl fun h _ => ?_
  rw [lidx_at, ridx_at, masked_q_at, masked_d_at]

end Cert.ReferenceIdeal.Rows

end
-- ==== Proof.RefTermFreq.lean ====
/-
  The reference's blended term frequency.

  At `(b, q, d)` the reference forms overlap · c₁ + match · c₂, multiplies by the document window's term frequency (the
  integer array read as reals, broadcast along the query axis), and sums over the 256 document windows from the zero
  word. That is `termFreq` of query window `q` against the document windows of row `b`, term by term.
-/
import proofs.«123404_j20572893348512_2_alg».proof.Proof.RefOverlap

noncomputable section

namespace Cert.ReferenceIdeal.Rows

open Idealize.ShloMosaic Idealize.ShloMosaic.ValueIdx Cert.ReferenceIdeal Cert.Scoring

/-- The term frequencies broadcast along the query axis: at `(b, q, d)` the real read of `x5 (b, d)`. -/
theorem tf_at (x5 : (⟨S64x256, .i32⟩ : BufTy).Contents (Elt Ideal)) (b : Fin 64) (q d : Fin 256) :
    Read.val_main_v31 (F := Ideal) x5 (ix3 b q d) = FloatOps.sitofp (F := Ideal) .f32 (x5 (ix2 b d)) := by
  have e : Read.idx_main_v30 (Read.idx_main_v31 (ix3 b q d)) = ix2 b d :=
    funext fun a => Fin.ext (by match a with | ⟨0, _⟩ => rfl | ⟨1, _⟩ => rfl)
  rw [Read.val_main_v31_apply, Read.val_main_v30_apply, Read.val_main_v29_apply, e]

/-- One term of the blended term frequency at `(b, q, d)`. -/
theorem blend_at (x0 x1 : (⟨S64x256x768, .f32⟩ : BufTy).Contents (Elt Ideal)) (x3 x4 : (⟨S64x256x4, .i32⟩ : BufTy).Contents (Elt Ideal))
    (x5 : (⟨S64x256, .i32⟩ : BufTy).Contents (Elt Ideal)) (b : Fin 64) (q d : Fin 256) :
    Read.val_main_v32 (F := Ideal) x0 x1 x3 x4 x5 (ix3 b q d)
      = (overlapAt x0 x1 x3 x4 b q d * Ideal.ofBits .f32 0x39088889#32
          + same (fun k => x3 (ix3 b q k)) (fun k => x4 (ix3 b d k)) * Ideal.ofBits .f32 0x3F666666#32)
        * FloatOps.sitofp (F := Ideal) .f32 (x5 (ix2 b d)) := by
  rw [Read.val_main_v32_apply, Read.val_main_v28_apply, Read.val_main_v25_apply, Read.val_main_v27_apply,
    Read.val_main_v24_apply, Read.val_main_cst_apply, Read.val_main_v26_apply, Read.val_main_cst_4_apply,
    ref_overlap, match_at, tf_at]
  rfl

/-- The reference's blended term frequency at `(b, q)`. -/
theorem termfreq_at (x0 x1 : (⟨S64x256x768, .f32⟩ : BufTy).Contents (Elt Ideal)) (x3 x4 : (⟨S64x256x4, .i32⟩ : BufTy).Contents (Elt Ideal))
    (x5 : (⟨S64x256, .i32⟩ : BufTy).Contents (Elt Ideal)) (b : Fin 64) (q : Fin 256) :
    Read.val_main_v33 (F := Ideal) x0 x1 x3 x4 x5 (ix2 b q)
      = termFreq (fun h => x0 (ix3 b q h)) (fun d h => x1 (ix3 b d h)) (fun k => x3 (ix3 b q k)) (fun d k => x4 (ix3 b d k))
          (fun d => FloatOps.sitofp (F := Ideal) .f32 (x5 (ix2 b d))) := by
  rw [Read.val_main_v33_apply, Read.val_main_cst_5_apply]
  unfold termFreq
  rw [Ideal.ofBits_def, Ideal.ofBits_zero_f32, zero_add]
  refine Finset.sum_congr rfl fun d _ => ?_
  have e : Read.idx_main_v33 (ix2 b q) d = ix3 b q d :=
    funext fun a => Fin.ext (by match a with | ⟨0, _⟩ => rfl | ⟨1, _⟩ => rfl | ⟨2, _⟩ => rfl)
  rw [e, blend_at]
  rfl

end Cert.ReferenceIdeal.Rows

end
-- ==== Proof.RefDocLen.lean ====
/-
  The reference's document length and the length term of the weight's denominator.

  The document length of batch row `b` is the sum, from the zero word, of the 256 term frequencies read as reals. The
  reference keeps it as a 64×1 column, scales it (c₆ · dl / 50), shifts it (c₅ + ·), scales again (c₄ · ·) and broadcasts
  the column along the query axis; at `(b, q)` the broadcast reads the column at `(b, 0)`.
-/
import proofs.«123404_j20572893348512_2_alg».proof.Proof.Gen.ReferenceIdeal.Read
import proofs.«123404_j20572893348512_2_alg».proof.Proof.Scoring

noncomputable section

namespace Cert.ReferenceIdeal.Rows

open Idealize.ShloMosaic Idealize.ShloMosaic.ValueIdx Cert.ReferenceIdeal Cert.Scoring

/-- The reference's document length at batch row `b`. -/
theorem doclen_at (x5 : (⟨S64x256, .i32⟩ : BufTy).Contents (Elt Ideal)) (b : Fin 64) :
    Read.val_main_v35 (F := Ideal) x5 (ix1 b) = docLen (fun d => FloatOps.sitofp (F := Ideal) .f32 (x5 (ix2 b d))) := by
  rw [Read.val_main_v35_apply, Read.val_main_cst_6_apply]
  unfold docLen
  rw [Ideal.ofBits_def, Ideal.ofBits_zero_f32, zero_add]
  refine Finset.sum_congr rfl fun d _ => ?_
  rw [Read.val_main_v34_apply]
  exact congrArg (fun i => FloatOps.sitofp (F := Ideal) .f32 (x5 i))
    (funext fun a => Fin.ext (by match a with | ⟨0, _⟩ => rfl | ⟨1, _⟩ => rfl))

/-- The length term of the denominator at `(b, q)`: c₄ · (c₅ + (c₆ · dl) / 50), the same for every query window. -/
theorem length_term_at (x5 : (⟨S64x256, .i32⟩ : BufTy).Contents (Elt Ideal)) (b : Fin 64) (q : Fin 256) :
    Read.val_main_v47 (F := Ideal) x5 (ix2 b q)
      = Ideal.ofBits .f32 0x3DCCCCCD#32 * (Ideal.ofBits .f32 0xBE4CCCCD#32
          + Ideal.div (Ideal.ofBits .f32 0x3F99999A#32 * docLen (fun d => FloatOps.sitofp (F := Ideal) .f32 (x5 (ix2 b d))))
              (Ideal.ofBits .f32 0x42480000#32)) := by
  have e : Read.idx_main_v36 (Read.idx_main_v47 (ix2 b q)) = ix1 b :=
    funext fun a => Fin.ext (by match a with | ⟨0, _⟩ => rfl)
  rw [Read.val_main_v47_apply, Read.val_main_v46_apply, Read.val_main_v45_apply, Read.val_main_cst_11_apply,
    Read.val_main_v44_apply, Read.val_main_v43_apply, Read.val_main_cst_10_apply, Read.val_main_v42_apply,
    Read.val_main_v41_apply, Read.val_main_cst_9_apply, Read.val_main_v40_apply, Read.val_main_v39_apply,
    Read.val_main_cst_8_apply, Read.val_main_v36_apply, e, doclen_at]
  rfl

end Cert.ReferenceIdeal.Rows

end
-- ==== Proof.RefRows.lean ====
/-
  The reference program computes the scoring layer: its overlap matrix is `overlapArr` and its scores are `scoreArr`.

  The weight at `(b, q)` is the reference's quotient, literal by literal: the blended term frequency times c₃ over the
  blended term frequency plus the length term plus c₇. The score of row `b` is the sum, from the zero word, over the 256
  query windows of the term weight times that weight.
-/
import proofs.«123404_j20572893348512_2_alg».proof.Proof.RefTermFreq
import proofs.«123404_j20572893348512_2_alg».proof.Proof.RefDocLen

noncomputable section

namespace Cert.ReferenceIdeal.Rows

open Idealize.ShloMosaic Idealize.ShloMosaic.ValueIdx Cert.ReferenceIdeal Cert.Scoring

/-- The reference's saturated weight at `(b, q)`. -/
theorem weight_at (x0 x1 : (⟨S64x256x768, .f32⟩ : BufTy).Contents (Elt Ideal)) (x3 x4 : (⟨S64x256x4, .i32⟩ : BufTy).Contents (Elt Ideal))
    (x5 : (⟨S64x256, .i32⟩ : BufTy).Contents (Elt Ideal)) (b : Fin 64) (q : Fin 256) :
    Read.val_main_v51 (F := Ideal) x0 x1 x3 x4 x5 (ix2 b q)
      = weight (termFreq (fun h => x0 (ix3 b q h)) (fun d h => x1 (ix3 b d h)) (fun k => x3 (ix3 b q k)) (fun d k => x4 (ix3 b d k))
                  (fun d => FloatOps.sitofp (F := Ideal) .f32 (x5 (ix2 b d))))
          (docLen (fun d => FloatOps.sitofp (F := Ideal) .f32 (x5 (ix2 b d)))) := by
  rw [Read.val_main_v51_apply, Read.val_main_v38_apply, Read.val_main_v50_apply, Read.val_main_v48_apply,
    Read.val_main_v37_apply, Read.val_main_cst_7_apply, Read.val_main_v49_apply, Read.val_main_cst_12_apply,
    termfreq_at, length_term_at]
  rfl

/-- The reference's score of batch row `b`. -/
theorem ref_score (x0 x1 : (⟨S64x256x768, .f32⟩ : BufTy).Contents (Elt Ideal)) (x2 : (⟨S64x256, .f32⟩ : BufTy).Contents (Elt Ideal))
    (x3 x4 : (⟨S64x256x4, .i32⟩ : BufTy).Contents (Elt Ideal)) (x5 : (⟨S64x256, .i32⟩ : BufTy).Contents (Elt Ideal)) (b : Fin 64) :
    Read.val_main_v53 (F := Ideal) x0 x1 x2 x3 x4 x5 (ix1 b) = scoreAt x0 x1 x2 x3 x4 x5 b := by
  rw [Read.val_main_v53_apply, Read.val_main_cst_13_apply]
  unfold scoreAt score
  rw [Ideal.ofBits_def, Ideal.ofBits_zero_f32, zero_add]
  refine Finset.sum_congr rfl fun q _ => ?_
  have e : Read.idx_main_v53 (ix1 b) q = ix2 b q :=
    funext fun a => Fin.ext (by match a with | ⟨0, _⟩ => rfl | ⟨1, _⟩ => rfl)
  rw [e, Read.val_main_v52_apply, weight_at]
  rfl

/-- The reference's overlap matrix, as a whole array. -/
theorem ref_overlap_arr (x0 x1 : (⟨S64x256x768, .f32⟩ : BufTy).Contents (Elt Ideal)) (x3 x4 : (⟨S64x256x4, .i32⟩ : BufTy).Contents (Elt Ideal)) :
    Read.val_main_v16 (F := Ideal) x0 x1 x3 x4 = overlapArr x0 x1 x3 x4 := by
  funext i
  obtain ⟨b, q, d, rfl⟩ : ∃ (b : Fin 64) (q d : Fin 256), i = ix3 b q d := ⟨i 0, i 1, i 2, eq_ix3 i⟩
  exact ref_overlap x0 x1 x3 x4 b q d

/-- The reference's scores, as a whole array. -/
theorem ref_score_arr (x0 x1 : (⟨S64x256x768, .f32⟩ : BufTy).Contents (Elt Ideal)) (x2 : (⟨S64x256, .f32⟩ : BufTy).Contents (Elt Ideal))
    (x3 x4 : (⟨S64x256x4, .i32⟩ : BufTy).Contents (Elt Ideal)) (x5 : (⟨S64x256, .i32⟩ : BufTy).Contents (Elt Ideal)) :
    Read.val_main_v53 (F := Ideal) x0 x1 x2 x3 x4 x5 = scoreArr x0 x1 x2 x3 x4 x5 := by
  funext i
  obtain ⟨b, rfl⟩ : ∃ (b : Fin 64), i = ix1 b := ⟨i 0, eq_ix1 i⟩
  exact ref_score x0 x1 x2 x3 x4 x5 b

end Cert.ReferenceIdeal.Rows

end
-- ==== Proof.KernelHostSides.lean ====
/-
  The arrays the kernel's region finds, where the host wrote them: the query term weights with a unit axis appended, the
  document term frequencies read as reals with a unit axis inserted, and the document ids with their last two axes
  exchanged. Each is read here at an index as an element of the argument array it was made from.
-/
import proofs.«123404_j20572893348512_2_alg».proof.Proof.Gen.KernelIdeal.Frame
import Idealize.ShloMosaic.Lib.ValueIdx
import Idealize.ShloMosaic.Lib.Pipeline.Value
import Idealize.ShloMosaic.Lib.Tactic

noncomputable section

namespace Cert.KernelIdeal.Arrays

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-! ## The three arrays as terms of the arguments -/

/-- The weights with a trailing unit axis. -/
theorem weights_col (c : Dev nD) : (V m c main_v0 : S64x256x1.Idx → EReal)
    = broadcastInDim S64x256x1 ![0, 1] bcast_S64x256_S64x256x1_0_1 (m ((c : Thread nD τ).loc main_arg2) : S64x256.Idx → EReal) := by
  show StableHlo.after hostOps0 (fun b => m (c, b)) (Proc.devRef .tc main_v0) = _
  after_results

/-- The term frequencies as reals, with a unit axis in the middle. -/
theorem freqs_row (c : Dev nD) : (V m c main_v2 : S64x1x256.Idx → EReal)
    = broadcastInDim S64x1x256 ![0, 2] bcast_S64x256_S64x1x256_0_2
        (sitofp (F := Ideal) .f32 (m ((c : Thread nD τ).loc main_arg5) : S64x256.Idx → BitVec 32) : S64x256.Idx → EReal) := by
  show StableHlo.after hostOps0 (fun b => m (c, b)) (Proc.devRef .tc main_v2) = _
  after_results

/-- The document ids with the window axis last. -/
theorem ids_transposed (c : Dev nD) : (V m c main_v3 : S64x4x256.Idx → BitVec 32)
    = transpose S64x4x256 [0, 2, 1] (m ((c : Thread nD τ).loc main_arg4) : S64x256x4.Idx → BitVec 32) transposes_S64x256x4_S64x4x256_0_2_1 := by
  show StableHlo.after hostOps0 (fun b => m (c, b)) (Proc.devRef .tc main_v3) = _
  after_results

/-! ## Each read at an index -/

/-- The weight column at batch row `b`, query window `q` is the weight there. -/
theorem weights_col_apply (c : Dev nD) (b : Fin 64) (q : Fin 256) (z : Fin 1) :
    (V m c main_v0 : S64x256x1.Idx → EReal) (ix3 b q z) = (m ((c : Thread nD τ).loc main_arg2) : S64x256.Idx → EReal) (ix2 b q) := by
  rw [weights_col]
  exact broadcastInDim_apply _ _ _ (ix3 b q z) (ix2 b q) (fun a => by match a with | ⟨0, _⟩ => rfl | ⟨1, _⟩ => rfl)

/-- The frequency row at batch row `b`, document window `d` is the integer frequency there read as a real. -/
theorem freqs_row_apply (c : Dev nD) (b : Fin 64) (z : Fin 1) (d : Fin 256) :
    (V m c main_v2 : S64x1x256.Idx → EReal) (ix3 b z d)
      = FloatOps.sitofp (F := Ideal) .f32 ((m ((c : Thread nD τ).loc main_arg5) : S64x256.Idx → BitVec 32) (ix2 b d)) := by
  rw [freqs_row]
  exact broadcastInDim_apply _ _ _ (ix3 b z d) (ix2 b d) (fun a => by match a with | ⟨0, _⟩ => rfl | ⟨1, _⟩ => rfl)

/-- The transposed ids at batch row `b`, id `k`, document window `d` are the ids at `(b, d, k)`. -/
theorem ids_transposed_apply (c : Dev nD) (b : Fin 64) (k : Fin 4) (d : Fin 256) :
    (V m c main_v3 : S64x4x256.Idx → BitVec 32) (ix3 b k d) = (m ((c : Thread nD τ).loc main_arg4) : S64x256x4.Idx → BitVec 32) (ix3 b d k) := by
  rw [ids_transposed]
  exact transpose_apply _ _ _ (ix3 b k d) (ix3 b d k) (fun a => by match a with | ⟨0, _⟩ => rfl | ⟨1, _⟩ => rfl | ⟨2, _⟩ => rfl)

end Cert.KernelIdeal.Arrays

end
-- ==== Proof.KernelBlocks.lean ====
/-
  Every window of the kernel moves with the grid point along the batch axis only, two batch rows to a block: the block
  at point `t` holds batch rows `2t` and `2t + 1` of its array, whole in the other two axes. So each input block, read at
  an index, is an element of the argument array the window's array was made from.
-/
import proofs.«123404_j20572893348512_2_alg».proof.Proof.Gen.KernelIdeal.Frame
import proofs.«123404_j20572893348512_2_alg».proof.Proof.KernelHostSides
import Idealize.ShloMosaic.Lib.ValueIdx
import Idealize.ShloMosaic.Lib.Pipeline.Value

noncomputable section

namespace Cert.KernelIdeal.Arrays

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-- The batch row under block row `p` of the block at grid point `t`. -/
def row (t : Fin cfg0.N) (p : Fin 2) : Fin 64 :=
  ⟨2 * t.val + p.val, by have h : t.val < 32 := Nat.lt_of_lt_of_eq t.isLt N_0; omega⟩

theorem row_val (t : Fin cfg0.N) (p : Fin 2) : (row t p).val = 2 * t.val + p.val := rfl

/-- The body's loads and stores are at offset zero on every axis. -/
theorem zero_offsets : (![0, 0, 0] : Fin 3 → Nat) = fun _ => 0 := funext fun a => by fin_cases a <;> rfl

/-- Every window's block index at point `t` is `(t, 0, 0)`: decided over the grid. -/
theorem index_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0)
    ∧ (win0_7.index t (0 : Fin 3) = t.val ∧ win0_7.index t (1 : Fin 3) = 0 ∧ win0_7.index t (2 : Fin 3) = 0)
    ∧ (win0_8.index t (0 : Fin 3) = t.val ∧ win0_8.index t (1 : Fin 3) = 0 ∧ win0_8.index t (2 : Fin 3) = 0) :=
  (by decide +kernel : ∀ t : Fin grid0.N, _)

/-! ## A block of each window's array, read at an index

A block's coordinate in the array is the block index times the block's size plus the coordinate inside the block. -/

/-- Window 0: rows of query features. -/
theorem blk0_apply (A : S64x256x768.Idx → EReal) (t : Fin cfg0.N) (p : Fin 2) (q : Fin 256) (h : Fin 768) :
    ((cfg0.win 0).blk t).view.read (Elt Ideal) A (ix3 p q h) = A (ix3 (row t p) q h) := by
  obtain ⟨e0, e1, e2⟩ := (index_facts t).1
  show A (((cfg0.win 0).blk t).view.emb (ix3 p q h)) = A (ix3 (row t p) q h)
  refine congrArg A (funext fun a => Fin.ext ?_)
  match a with
  | ⟨0, _⟩ => show win0_0.index t (0 : Fin 3) * 2 + 1 * p.val = 2 * t.val + p.val; omega
  | ⟨1, _⟩ => show win0_0.index t (1 : Fin 3) * 256 + 1 * q.val = q.val; omega
  | ⟨2, _⟩ => show win0_0.index t (2 : Fin 3) * 768 + 1 * h.val = h.val; omega

/-- Window 1: rows of document features. -/
theorem blk1_apply (A : S64x256x768.Idx → EReal) (t : Fin cfg0.N) (p : Fin 2) (d : Fin 256) (h : Fin 768) :
    ((cfg0.win 1).blk t).view.read (Elt Ideal) A (ix3 p d h) = A (ix3 (row t p) d h) := by
  obtain ⟨e0, e1, e2⟩ := (index_facts t).2.1
  show A (((cfg0.win 1).blk t).view.emb (ix3 p d h)) = A (ix3 (row t p) d h)
  refine congrArg A (funext fun a => Fin.ext ?_)
  match a with
  | ⟨0, _⟩ => show win0_1.index t (0 : Fin 3) * 2 + 1 * p.val = 2 * t.val + p.val; omega
  | ⟨1, _⟩ => show win0_1.index t (1 : Fin 3) * 256 + 1 * d.val = d.val; omega
  | ⟨2, _⟩ => show win0_1.index t (2 : Fin 3) * 768 + 1 * h.val = h.val; omega

/-- Window 2: the query weights as a column. -/
theorem blk2_apply (A : S64x256x1.Idx → EReal) (t : Fin cfg0.N) (p : Fin 2) (q : Fin 256) (z : Fin 1) :
    ((cfg0.win 2).blk t).view.read (Elt Ideal) A (ix3 p q z) = A (ix3 (row t p) q z) := by
  obtain ⟨e0, e1, e2⟩ := (index_facts t).2.2.1
  show A (((cfg0.win 2).blk t).view.emb (ix3 p q z)) = A (ix3 (row t p) q z)
  refine congrArg A (funext fun a => Fin.ext ?_)
  match a with
  | ⟨0, _⟩ => show win0_2.index t (0 : Fin 3) * 2 + 1 * p.val = 2 * t.val + p.val; omega
  | ⟨1, _⟩ => show win0_2.index t (1 : Fin 3) * 256 + 1 * q.val = q.val; omega
  | ⟨2, _⟩ => show win0_2.index t (2 : Fin 3) * 1 + 1 * z.val = z.val; omega

/-- Window 3: the query ids. -/
theorem blk3_apply (A : S64x256x4.Idx → BitVec 32) (t : Fin cfg0.N) (p : Fin 2) (q : Fin 256) (k : Fin 4) :
    ((cfg0.win 3).blk t).view.read (Elt Ideal) A (ix3 p q k) = A (ix3 (row t p) q k) := by
  obtain ⟨e0, e1, e2⟩ := (index_facts t).2.2.2.1
  show A (((cfg0.win 3).blk t).view.emb (ix3 p q k)) = A (ix3 (row t p) q k)
  refine congrArg A (funext fun a => Fin.ext ?_)
  match a with
  | ⟨0, _⟩ => show win0_3.index t (0 : Fin 3) * 2 + 1 * p.val = 2 * t.val + p.val; omega
  | ⟨1, _⟩ => show win0_3.index t (1 : Fin 3) * 256 + 1 * q.val = q.val; omega
  | ⟨2, _⟩ => show win0_3.index t (2 : Fin 3) * 4 + 1 * k.val = k.val; omega

/-- Window 4: the document ids. -/
theorem blk4_apply (A : S64x256x4.Idx → BitVec 32) (t : Fin cfg0.N) (p : Fin 2) (d : Fin 256) (k : Fin 4) :
    ((cfg0.win 4).blk t).view.read (Elt Ideal) A (ix3 p d k) = A (ix3 (row t p) d k) := by
  obtain ⟨e0, e1, e2⟩ := (index_facts t).2.2.2.2.1
  show A (((cfg0.win 4).blk t).view.emb (ix3 p d k)) = A (ix3 (row t p) d k)
  refine congrArg A (funext fun a => Fin.ext ?_)
  match a with
  | ⟨0, _⟩ => show win0_4.index t (0 : Fin 3) * 2 + 1 * p.val = 2 * t.val + p.val; omega
  | ⟨1, _⟩ => show win0_4.index t (1 : Fin 3) * 256 + 1 * d.val = d.val; omega
  | ⟨2, _⟩ => show win0_4.index t (2 : Fin 3) * 4 + 1 * k.val = k.val; omega

/-- Window 5: the document ids, window axis last. -/
theorem blk5_apply (A : S64x4x256.Idx → BitVec 32) (t : Fin cfg0.N) (p : Fin 2) (k : Fin 4) (d : Fin 256) :
    ((cfg0.win 5).blk t).view.read (Elt Ideal) A (ix3 p k d) = A (ix3 (row t p) k d) := by
  obtain ⟨e0, e1, e2⟩ := (index_facts t).2.2.2.2.2.1
  show A (((cfg0.win 5).blk t).view.emb (ix3 p k d)) = A (ix3 (row t p) k d)
  refine congrArg A (funext fun a => Fin.ext ?_)
  match a with
  | ⟨0, _⟩ => show win0_5.index t (0 : Fin 3) * 2 + 1 * p.val = 2 * t.val + p.val; omega
  | ⟨1, _⟩ => show win0_5.index t (1 : Fin 3) * 4 + 1 * k.val = k.val; omega
  | ⟨2, _⟩ => show win0_5.index t (2 : Fin 3) * 256 + 1 * d.val = d.val; omega

/-- Window 6: the term frequencies as a row. -/
theorem blk6_apply (A : S64x1x256.Idx → EReal) (t : Fin cfg0.N) (p : Fin 2) (z : Fin 1) (d : Fin 256) :
    ((cfg0.win 6).blk t).view.read (Elt Ideal) A (ix3 p z d) = A (ix3 (row t p) z d) := by
  obtain ⟨e0, e1, e2⟩ := (index_facts t).2.2.2.2.2.2.1
  show A (((cfg0.win 6).blk t).view.emb (ix3 p z d)) = A (ix3 (row t p) z d)
  refine congrArg A (funext fun a => Fin.ext ?_)
  match a with
  | ⟨0, _⟩ => show win0_6.index t (0 : Fin 3) * 2 + 1 * p.val = 2 * t.val + p.val; omega
  | ⟨1, _⟩ => show win0_6.index t (1 : Fin 3) * 1 + 1 * z.val = z.val; omega
  | ⟨2, _⟩ => show win0_6.index t (2 : Fin 3) * 256 + 1 * d.val = d.val; omega

/-- Window 7: the overlap matrices. -/
theorem blk7_apply (A : S64x256x256.Idx → EReal) (t : Fin cfg0.N) (p : Fin 2) (q : Fin 256) (d : Fin 256) :
    ((cfg0.win 7).blk t).view.read (Elt Ideal) A (ix3 p q d) = A (ix3 (row t p) q d) := by
  obtain ⟨e0, e1, e2⟩ := (index_facts t).2.2.2.2.2.2.2.1
  show A (((cfg0.win 7).blk t).view.emb (ix3 p q d)) = A (ix3 (row t p) q d)
  refine congrArg A (funext fun a => Fin.ext ?_)
  match a with
  | ⟨0, _⟩ => show win0_7.index t (0 : Fin 3) * 2 + 1 * p.val = 2 * t.val + p.val; omega
  | ⟨1, _⟩ => show win0_7.index t (1 : Fin 3) * 256 + 1 * q.val = q.val; omega
  | ⟨2, _⟩ => show win0_7.index t (2 : Fin 3) * 256 + 1 * d.val = d.val; omega

/-- Window 8: the scores. -/
theorem blk8_apply (A : S64x1x1.Idx → EReal) (t : Fin cfg0.N) (p : Fin 2) (z : Fin 1) (z' : Fin 1) :
    ((cfg0.win 8).blk t).view.read (Elt Ideal) A (ix3 p z z') = A (ix3 (row t p) z z') := by
  obtain ⟨e0, e1, e2⟩ := (index_facts t).2.2.2.2.2.2.2.2
  show A (((cfg0.win 8).blk t).view.emb (ix3 p z z')) = A (ix3 (row t p) z z')
  refine congrArg A (funext fun a => Fin.ext ?_)
  match a with
  | ⟨0, _⟩ => show win0_8.index t (0 : Fin 3) * 2 + 1 * p.val = 2 * t.val + p.val; omega
  | ⟨1, _⟩ => show win0_8.index t (1 : Fin 3) * 1 + 1 * z.val = z.val; omega
  | ⟨2, _⟩ => show win0_8.index t (2 : Fin 3) * 1 + 1 * z'.val = z'.val; omega

/-! ## The input blocks as rows of the argument arrays -/

/-- The query features' block. -/
theorem query_block (c : Dev nD) (t : Fin cfg0.N) (p : Fin 2) (q : Fin 256) (h : Fin 768) :
    (iblk m c 0 t : Vec Ideal S2x256x768 .f32) (ix3 p q h)
      = (m ((c : Thread nD τ).loc main_arg0) : S64x256x768.Idx → EReal) (ix3 (row t p) q h) :=
  (blk0_apply (V m c main_arg0) t p q h).trans (congrFun (V_main_arg0 m c) _)

/-- The document features' block. -/
theorem doc_block (c : Dev nD) (t : Fin cfg0.N) (p : Fin 2) (d : Fin 256) (h : Fin 768) :
    (iblk m c 1 t : Vec Ideal S2x256x768 .f32) (ix3 p d h)
      = (m ((c : Thread nD τ).loc main_arg1) : S64x256x768.Idx → EReal) (ix3 (row t p) d h) :=
  (blk1_apply (V m c main_arg1) t p d h).trans (congrFun (V_main_arg1 m c) _)

/-- The weights' block: a column of the weights. -/
theorem weight_block (c : Dev nD) (t : Fin cfg0.N) (p : Fin 2) (q : Fin 256) (z : Fin 1) :
    (iblk m c 2 t : Vec Ideal S2x256x1 .f32) (ix3 p q z)
      = (m ((c : Thread nD τ).loc main_arg2) : S64x256.Idx → EReal) (ix2 (row t p) q) :=
  (blk2_apply (V m c main_v0) t p q z).trans (weights_col_apply m c (row t p) q z)

/-- The query ids' block. -/
theorem query_ids_block (c : Dev nD) (t : Fin cfg0.N) (p : Fin 2) (q : Fin 256) (k : Fin 4) :
    (iblk m c 3 t : Vec Ideal S2x256x4 .i32) (ix3 p q k)
      = (m ((c : Thread nD τ).loc main_arg3) : S64x256x4.Idx → BitVec 32) (ix3 (row t p) q k) :=
  (blk3_apply (V m c main_arg3) t p q k).trans (congrFun (V_main_arg3 m c) _)

/-- The document ids' block. -/
theorem doc_ids_block (c : Dev nD) (t : Fin cfg0.N) (p : Fin 2) (d : Fin 256) (k : Fin 4) :
    (iblk m c 4 t : Vec Ideal S2x256x4 .i32) (ix3 p d k)
      = (m ((c : Thread nD τ).loc main_arg4) : S64x256x4.Idx → BitVec 32) (ix3 (row t p) d k) :=
  (blk4_apply (V m c main_arg4) t p d k).trans (congrFun (V_main_arg4 m c) _)

/-- The transposed document ids' block holds the same ids as the document ids' block. -/
theorem doc_ids_t_block (c : Dev nD) (t : Fin cfg0.N) (p : Fin 2) (k : Fin 4) (d : Fin 256) :
    (iblk m c 5 t : Vec Ideal S2x4x256 .i32) (ix3 p k d)
      = (m ((c : Thread nD τ).loc main_arg4) : S64x256x4.Idx → BitVec 32) (ix3 (row t p) d k) :=
  (blk5_apply (V m c main_v3) t p k d).trans (ids_transposed_apply m c (row t p) k d)

/-- The term frequencies' block: a row of the integer frequencies read as reals. -/
theorem freq_block (c : Dev nD) (t : Fin cfg0.N) (p : Fin 2) (z : Fin 1) (d : Fin 256) :
    (iblk m c 6 t : Vec Ideal S2x1x256 .f32) (ix3 p z d)
      = FloatOps.sitofp (F := Ideal) .f32 ((m ((c : Thread nD τ).loc main_arg5) : S64x256.Idx → BitVec 32) (ix2 (row t p) d)) :=
  (blk6_apply (V m c main_v2) t p z d).trans (freqs_row_apply m c (row t p) z d)

end Cert.KernelIdeal.Arrays

end
-- ==== Proof.KernelMasks.lean ====
/-
  The body's null-window masks read at an index: the conjunction of the four comparisons with zero, negated and read
  as a real, is `keep` of the window's four ids.
-/
import proofs.«123404_j20572893348512_2_alg».proof.Proof.Gen.KernelIdeal.Skeleton
import proofs.«123404_j20572893348512_2_alg».proof.Proof.ScoringBits
import Idealize.ShloMosaic.Lib.ValueIdx
import Idealize.ShloMosaic.Lib.Pipeline.Value

noncomputable section

namespace Cert.KernelIdeal.Rows

open Idealize.ShloMosaic Idealize.ShloMosaic.ValueIdx Cert.KernelIdeal Cert.KernelIdeal.Gen Cert.Scoring

/-- Column `o` of a block of id windows, read at a window. -/
theorem id_column (x : Vec Ideal S2x256x4 .i32) (o : Nat) (ho : o < 4) (h : S2x256x4.Slices ![0, 0, o] S2x256x1) (p : Fin 2) (q : Fin 256) :
    extractStridedSlice S2x256x1 ![0, 0, o] x h (ix3 p q (0 : Fin 1)) = x (ix3 p q (⟨o, ho⟩ : Fin 4)) :=
  extractStridedSlice_apply _ x h _ _ (fun a => by
    match a with
    | ⟨0, _⟩ => simp
    | ⟨1, _⟩ => simp
    | ⟨2, _⟩ => simp)

/-- The conjunction of the four comparisons of a window's ids with zero is set exactly when the window is null. -/
theorem null_bit (ids : Fin 4 → BitVec 32) :
    IntOp.andi (IntOp.andi (IntOp.andi (IntOp.cmpi .eq (ids 0) 0#32) (IntOp.cmpi .eq (ids 1) 0#32)) (IntOp.cmpi .eq (ids 2) 0#32))
        (IntOp.cmpi .eq (ids 3) 0#32) = 1#1 ↔ ∀ k, ids k = 0#32 := by
  rw [and4_eq_one (fun k => IntOp.cmpi .eq (ids k) 0#32)]
  exact forall_congr' fun k => IntOp.cmpi_eq

/-- The query mask the body computes, at block row `p` and window `q`. -/
theorem query_mask (x3 : Vec Ideal S2x256x4 .i32) (p : Fin 2) (q : Fin 256) :
    k0_pay2 (F := Ideal) x3 (ix3 p q (0 : Fin 1)) = keep (fun k => x3 (ix3 p q k)) := by
  unfold k0_pay2
  show FloatOps.sitofp (F := Ideal) .f32 ((IntOp.xori (IntOp.andi (IntOp.andi (IntOp.andi
      (IntOp.cmpi .eq (extractStridedSlice S2x256x1 ![0, 0, 0] x3 slices_S2x256x4_o0_0_0_S2x256x1 (ix3 p q (0 : Fin 1))) 0#32)
      (IntOp.cmpi .eq (extractStridedSlice S2x256x1 ![0, 0, 1] x3 slices_S2x256x4_o0_0_1_S2x256x1 (ix3 p q (0 : Fin 1))) 0#32))
      (IntOp.cmpi .eq (extractStridedSlice S2x256x1 ![0, 0, 2] x3 slices_S2x256x4_o0_0_2_S2x256x1 (ix3 p q (0 : Fin 1))) 0#32))
      (IntOp.cmpi .eq (extractStridedSlice S2x256x1 ![0, 0, 3] x3 slices_S2x256x4_o0_0_3_S2x256x1 (ix3 p q (0 : Fin 1))) 0#32)) 1#1).setWidth 32) = _
  rw [id_column x3 0 (by decide), id_column x3 1 (by decide), id_column x3 2 (by decide), id_column x3 3 (by decide), real_of_not_bit]
  exact keep_of_bit (fun k => x3 (ix3 p q k)) _ (null_bit (fun k => x3 (ix3 p q k)))

/-- The document mask the body computes, at block row `p` and window `d`: the same computation on the other id block. -/
theorem document_mask (x4 : Vec Ideal S2x256x4 .i32) (p : Fin 2) (d : Fin 256) :
    k0_pay3 (F := Ideal) x4 (ix3 p d (0 : Fin 1)) = keep (fun k => x4 (ix3 p d k)) := by
  unfold k0_pay3
  show FloatOps.sitofp (F := Ideal) .f32 ((IntOp.xori (IntOp.andi (IntOp.andi (IntOp.andi
      (IntOp.cmpi .eq (extractStridedSlice S2x256x1 ![0, 0, 0] x4 slices_S2x256x4_o0_0_0_S2x256x1 (ix3 p d (0 : Fin 1))) 0#32)
      (IntOp.cmpi .eq (extractStridedSlice S2x256x1 ![0, 0, 1] x4 slices_S2x256x4_o0_0_1_S2x256x1 (ix3 p d (0 : Fin 1))) 0#32))
      (IntOp.cmpi .eq (extractStridedSlice S2x256x1 ![0, 0, 2] x4 slices_S2x256x4_o0_0_2_S2x256x1 (ix3 p d (0 : Fin 1))) 0#32))
      (IntOp.cmpi .eq (extractStridedSlice S2x256x1 ![0, 0, 3] x4 slices_S2x256x4_o0_0_3_S2x256x1 (ix3 p d (0 : Fin 1))) 0#32)) 1#1).setWidth 32) = _
  rw [id_column x4 0 (by decide), id_column x4 1 (by decide), id_column x4 2 (by decide), id_column x4 3 (by decide), real_of_not_bit]
  exact keep_of_bit (fun k => x4 (ix3 p d k)) _ (null_bit (fun k => x4 (ix3 p d k)))

end Cert.KernelIdeal.Rows

end
-- ==== Proof.KernelOverlap.lean ====
/-
  The matrix the body stores, read at an index: the batched product of the masked query block and the masked document
  block, contracted over the 768 features into a zero accumulator, is at (p, q, d) the inner product of query row
  (p, q) and document row (p, d), each scaled by its null-window mask.
-/
import proofs.«123404_j20572893348512_2_alg».proof.Proof.KernelMasks
import Idealize.ShloMosaic.PureOps.Ideal.Laws

noncomputable section

namespace Cert.KernelIdeal.Rows

open Idealize.ShloMosaic Idealize.ShloMosaic.ValueIdx Cert.KernelIdeal Cert.KernelIdeal.Gen Cert.Scoring

/-- The product's left operand index: batch and row from the output index, feature from the contraction index. -/
theorem lhs_axis0 (i : S2x256x256.Idx) (k : dot_S2x256x768_S2x256x768_S2x256x256_2_2_1_1_0_0.contr.Idx) : (dot_S2x256x768_S2x256x768_S2x256x256_2_2_1_1_0_0.lhsIdx i k 0).val = (i 0).val := by
  unfold DotDims.lhsIdx
  rw [dif_pos (show (0 : Fin S2x256x768.rank) ∈ dot_S2x256x768_S2x256x768_S2x256x256_2_2_1_1_0_0.lhsBatch by decide)]
  rfl
theorem lhs_axis1 (i : S2x256x256.Idx) (k : dot_S2x256x768_S2x256x768_S2x256x256_2_2_1_1_0_0.contr.Idx) : (dot_S2x256x768_S2x256x768_S2x256x256_2_2_1_1_0_0.lhsIdx i k 1).val = (i 1).val := by
  unfold DotDims.lhsIdx
  rw [dif_neg (show ¬(1 : Fin S2x256x768.rank) ∈ dot_S2x256x768_S2x256x768_S2x256x256_2_2_1_1_0_0.lhsBatch by decide),
    dif_pos (show (1 : Fin S2x256x768.rank) ∈ dot_S2x256x768_S2x256x768_S2x256x256_2_2_1_1_0_0.lhsNonContracting by decide)]
  rfl
theorem lhs_axis2 (i : S2x256x256.Idx) (k : dot_S2x256x768_S2x256x768_S2x256x256_2_2_1_1_0_0.contr.Idx) : (dot_S2x256x768_S2x256x768_S2x256x256_2_2_1_1_0_0.lhsIdx i k 2).val = (k ⟨0, by decide⟩).val :=
  dot_S2x256x768_S2x256x768_S2x256x256_2_2_1_1_0_0.lhsIdx_val_of_single rfl i k
/-- The right operand index: batch from the output index, row from the output's column, feature from the contraction. -/
theorem rhs_axis0 (i : S2x256x256.Idx) (k : dot_S2x256x768_S2x256x768_S2x256x256_2_2_1_1_0_0.contr.Idx) : (dot_S2x256x768_S2x256x768_S2x256x256_2_2_1_1_0_0.rhsIdx i k 0).val = (i 0).val := by
  unfold DotDims.rhsIdx
  rw [dif_pos (show (0 : Fin S2x256x768.rank) ∈ dot_S2x256x768_S2x256x768_S2x256x256_2_2_1_1_0_0.rhsBatch by decide)]
  rfl
theorem rhs_axis1 (i : S2x256x256.Idx) (k : dot_S2x256x768_S2x256x768_S2x256x256_2_2_1_1_0_0.contr.Idx) : (dot_S2x256x768_S2x256x768_S2x256x256_2_2_1_1_0_0.rhsIdx i k 1).val = (i 2).val := by
  unfold DotDims.rhsIdx
  rw [dif_neg (show ¬(1 : Fin S2x256x768.rank) ∈ dot_S2x256x768_S2x256x768_S2x256x256_2_2_1_1_0_0.rhsBatch by decide),
    dif_pos (show (1 : Fin S2x256x768.rank) ∈ dot_S2x256x768_S2x256x768_S2x256x256_2_2_1_1_0_0.rhsNonContracting by decide)]
  rfl
theorem rhs_axis2 (i : S2x256x256.Idx) (k : dot_S2x256x768_S2x256x768_S2x256x256_2_2_1_1_0_0.contr.Idx) : (dot_S2x256x768_S2x256x768_S2x256x256_2_2_1_1_0_0.rhsIdx i k 2).val = (k ⟨0, by decide⟩).val :=
  dot_S2x256x768_S2x256x768_S2x256x256_2_2_1_1_0_0.rhsIdx_val_of_single rfl i k

/-- The batched product into a zero accumulator at (p, q, d): the sum over the features of row (p, q) of the left
    block times row (p, d) of the right block. -/
theorem product_row (l r : FVec Ideal S2x256x768 .bf16) (p : Fin 2) (q d : Fin 256) :
    matmul dot_S2x256x768_S2x256x768_S2x256x256_2_2_1_1_0_0 none l r (constant (F := Ideal) S2x256x256 .f32 0x00000000#32) (ix3 p q d)
      = ∑ h : Fin 768, l (ix3 p q h) * r (ix3 p d h) := by
  simp only [matmul]
  rw [Ideal.matmul_constant_zero_apply, ← Equiv.sum_comp (contrEquiv1 dot_S2x256x768_S2x256x768_S2x256x256_2_2_1_1_0_0 768 rfl rfl).symm]
  refine Finset.sum_congr rfl fun h _ => ?_
  have hk := contrEquiv1_symm_val dot_S2x256x768_S2x256x768_S2x256x256_2_2_1_1_0_0 768 rfl rfl h
  have el : dot_S2x256x768_S2x256x768_S2x256x256_2_2_1_1_0_0.lhsIdx (ix3 p q d) ((contrEquiv1 dot_S2x256x768_S2x256x768_S2x256x256_2_2_1_1_0_0 768 rfl rfl).symm h) = ix3 p q h := funext fun a => Fin.ext (by
    match a with
    | ⟨0, _⟩ => exact lhs_axis0 _ _
    | ⟨1, _⟩ => exact lhs_axis1 _ _
    | ⟨2, _⟩ => exact (lhs_axis2 _ _).trans hk)
  have er : dot_S2x256x768_S2x256x768_S2x256x256_2_2_1_1_0_0.rhsIdx (ix3 p q d) ((contrEquiv1 dot_S2x256x768_S2x256x768_S2x256x256_2_2_1_1_0_0 768 rfl rfl).symm h) = ix3 p d h := funext fun a => Fin.ext (by
    match a with
    | ⟨0, _⟩ => exact rhs_axis0 _ _
    | ⟨1, _⟩ => exact rhs_axis1 _ _
    | ⟨2, _⟩ => exact (rhs_axis2 _ _).trans hk)
  rw [el, er]

/-- A column of per-window values spread along the feature axis, read at a feature, is the window's value. -/
theorem spread_features {α : Type} (v : S2x256x1.Idx → α) (hb : S2x256x1.Broadcasts S2x256x768) (p : Fin 2) (q : Fin 256) (h : Fin 768) :
    broadcastTo S2x256x768 v hb (ix3 p q h) = v (ix3 p q (0 : Fin 1)) :=
  broadcastTo_apply v hb _ _ (fun a => by
    match a with
    | ⟨0, _⟩ => simp
    | ⟨1, _⟩ => simp
    | ⟨2, _⟩ => simp)

/-- The matrix the body stores, at block row `p`, query window `q`, document window `d`. -/
theorem stored_overlap (x0 x1 : Vec Ideal S2x256x768 .f32) (x3 x4 : Vec Ideal S2x256x4 .i32) (p : Fin 2) (q d : Fin 256) :
    k0_pay4 (F := Ideal) (k0_pay2 x3) (k0_pay3 x4) x0 x1 (ix3 p q d)
      = overlap (fun h => x0 (ix3 p q h)) (fun h => x1 (ix3 p d h)) (fun k => x3 (ix3 p q k)) (fun k => x4 (ix3 p d k)) := by
  unfold k0_pay4 overlap
  refine (product_row _ _ p q d).trans (Finset.sum_congr rfl fun h _ => ?_)
  show x0 (ix3 p q h) * broadcastTo S2x256x768 (k0_pay2 (F := Ideal) x3) broadcasts_S2x256x1_S2x256x768 (ix3 p q h)
      * (x1 (ix3 p d h) * broadcastTo S2x256x768 (k0_pay3 (F := Ideal) x4) broadcasts_S2x256x1_S2x256x768 (ix3 p d h)) = _
  rw [spread_features, spread_features, query_mask, document_mask]

end Cert.KernelIdeal.Rows

end
-- ==== Proof.KernelLayout.lean ====
/-
  The layout steps of the body's score computation read at an index, over blocks of two batch rows: a lane sum as a
  sum over the summed coordinate, a trailing unit axis added by a cast, a column or a row spread over a matrix, a
  row of the transposed id block.
-/
import proofs.«123404_j20572893348512_2_alg».proof.KernelIdeal
import Idealize.ShloMosaic.Lib.ValueIdx
import Idealize.ShloMosaic.Lib.Pipeline.Value
import Idealize.ShloMosaic.PureOps.Ideal.Laws

noncomputable section

namespace Cert.KernelIdeal.Rows

open Idealize.ShloMosaic Idealize.ShloMosaic.ValueIdx Cert.KernelIdeal

variable {α : Type}

/-! ## Sums along one axis -/

/-- A [2,256,256] block summed along its last axis, at (p, q): the sum over the document windows. -/
theorem sum_documents (v : FVec Ideal S2x256x256 .f32) (h : S2x256x256.Reduces [2] S2x256) (hφ : FKind.Formats .f32)
    (hacc : (0x00000000#32 : BitVec 32) = FKind.add.neutral .f32 hφ) (p : Fin 2) (q : Fin 256) :
    multiReduction .add [2] S2x256 v 0x00000000#32 h hφ hacc (ix2 p q) = ∑ d : Fin 256, v (ix3 p q d) :=
  (Ideal.multiReduction_add_single v _ h hφ hacc (ix2 p q)).trans (Finset.sum_congr rfl fun d _ => congrArg v (funext fun a => Fin.ext (by
    match a with
    | ⟨0, _⟩ => rfl
    | ⟨1, _⟩ => rfl
    | ⟨2, _⟩ => rfl)))

/-- A [2,1,256] block summed along its last axis, at (p, 0): the sum of the row. -/
theorem sum_row (v : FVec Ideal S2x1x256 .f32) (h : S2x1x256.Reduces [2] S2x1) (hφ : FKind.Formats .f32)
    (hacc : (0x00000000#32 : BitVec 32) = FKind.add.neutral .f32 hφ) (p : Fin 2) :
    multiReduction .add [2] S2x1 v 0x00000000#32 h hφ hacc (ix2 p (0 : Fin 1)) = ∑ d : Fin 256, v (ix3 p (0 : Fin 1) d) :=
  (Ideal.multiReduction_add_single v _ h hφ hacc (ix2 p (0 : Fin 1))).trans (Finset.sum_congr rfl fun d _ => congrArg v (funext fun a => Fin.ext (by
    match a with
    | ⟨0, _⟩ => rfl
    | ⟨1, _⟩ => rfl
    | ⟨2, _⟩ => rfl)))

/-- A [2,256,1] block summed along its middle axis, at (p, 0): the sum of the column. -/
theorem sum_column (v : FVec Ideal S2x256x1 .f32) (h : S2x256x1.Reduces [1] S2x1) (hφ : FKind.Formats .f32)
    (hacc : (0x00000000#32 : BitVec 32) = FKind.add.neutral .f32 hφ) (p : Fin 2) :
    multiReduction .add [1] S2x1 v 0x00000000#32 h hφ hacc (ix2 p (0 : Fin 1)) = ∑ q : Fin 256, v (ix3 p q (0 : Fin 1)) :=
  (Ideal.multiReduction_add_single v _ h hφ hacc (ix2 p (0 : Fin 1))).trans (Finset.sum_congr rfl fun q _ => congrArg v (funext fun a => Fin.ext (by
    match a with
    | ⟨0, _⟩ => rfl
    | ⟨1, _⟩ => rfl
    | ⟨2, _⟩ => rfl)))

/-! ## A trailing unit axis added by a cast -/

/-- A [2,256] array cast to [2,256,1], at (p, q, 0). -/
theorem cast_column (x : S2x256.Idx → α) (h : S2x256.ShapeCasts S2x256x1) (p : Fin 2) (q : Fin 256) :
    shapeCast S2x256x1 x h (ix3 p q (0 : Fin 1)) = x (ix2 p q) :=
  shapeCast_apply x h _ _ (by
    rw [Shape.rowMajor_val_two, Shape.rowMajor_val_three]
    show p.val * 256 + q.val = (p.val * 256 + q.val) * 1 + 0
    omega)

/-- A [2,1] array cast to [2,1,1], at (p, 0, 0). -/
theorem cast_scalar (x : S2x1.Idx → α) (h : S2x1.ShapeCasts S2x1x1) (p : Fin 2) :
    shapeCast S2x1x1 x h (ix3 p (0 : Fin 1) (0 : Fin 1)) = x (ix2 p (0 : Fin 1)) :=
  shapeCast_apply x h _ _ (by
    rw [Shape.rowMajor_val_two, Shape.rowMajor_val_three]
    show p.val * 1 + 0 = (p.val * 1 + 0) * 1 + 0
    omega)

/-! ## Spreading a column, a row or a scalar -/

/-- A column of per-query values spread over the document axis. -/
theorem spread_documents (v : S2x256x1.Idx → α) (hb : S2x256x1.Broadcasts S2x256x256) (p : Fin 2) (q d : Fin 256) :
    broadcastTo S2x256x256 v hb (ix3 p q d) = v (ix3 p q (0 : Fin 1)) :=
  broadcastTo_apply v hb _ _ (fun a => by
    match a with
    | ⟨0, _⟩ => simp
    | ⟨1, _⟩ => simp
    | ⟨2, _⟩ => simp)

/-- A row of per-document values spread over the query axis. -/
theorem spread_queries (v : S2x1x256.Idx → α) (hb : S2x1x256.Broadcasts S2x256x256) (p : Fin 2) (q d : Fin 256) :
    broadcastTo S2x256x256 v hb (ix3 p q d) = v (ix3 p (0 : Fin 1) d) :=
  broadcastTo_apply v hb _ _ (fun a => by
    match a with
    | ⟨0, _⟩ => simp
    | ⟨1, _⟩ => simp
    | ⟨2, _⟩ => simp)

/-- A per-row scalar spread over the query axis. -/
theorem spread_scalar (v : S2x1x1.Idx → α) (hb : S2x1x1.Broadcasts S2x256x1) (p : Fin 2) (q : Fin 256) :
    broadcastTo S2x256x1 v hb (ix3 p q (0 : Fin 1)) = v (ix3 p (0 : Fin 1) (0 : Fin 1)) :=
  broadcastTo_apply v hb _ _ (fun a => by
    match a with
    | ⟨0, _⟩ => simp
    | ⟨1, _⟩ => simp
    | ⟨2, _⟩ => simp)

/-! ## A row of the transposed id block -/

/-- Row `o` of a [2,4,256] block of transposed id windows, at document window `d`. -/
theorem id_row (x : S2x4x256.Idx → α) (o : Nat) (ho : o < 4) (h : S2x4x256.Slices ![0, o, 0] S2x1x256) (p : Fin 2) (d : Fin 256) :
    extractStridedSlice S2x1x256 ![0, o, 0] x h (ix3 p (0 : Fin 1) d) = x (ix3 p (⟨o, ho⟩ : Fin 4) d) :=
  extractStridedSlice_apply _ x h _ _ (fun a => by
    match a with
    | ⟨0, _⟩ => simp
    | ⟨1, _⟩ => simp
    | ⟨2, _⟩ => simp)

end Cert.KernelIdeal.Rows

end
-- ==== Proof.KernelTermFreq.lean ====
/-
  The blended term frequency the body computes, read at an index: at block row `p` and query window `q` it is the sum
  over the document windows of (overlap · c₁ + match · c₂) · tf, the match taken between the query's ids and the
  document's ids as the transposed id block holds them.
-/
import proofs.«123404_j20572893348512_2_alg».proof.Proof.KernelOverlap
import proofs.«123404_j20572893348512_2_alg».proof.Proof.KernelLayout

noncomputable section

namespace Cert.KernelIdeal.Rows

open Idealize.ShloMosaic Idealize.ShloMosaic.ValueIdx Cert.KernelIdeal Cert.KernelIdeal.Gen Cert.Scoring

theorem andi_apply {s : Shape} {w : Nat} (x y : IVec s w) (i : s.Idx) : andi x y i = IntOp.andi (x i) (y i) := rfl
theorem cmpi_apply {s : Shape} {w : Nat} (pr : CmpIPredicate) (x y : IVec s w) (i : s.Idx) :
    cmpi pr x y i = IntOp.cmpi pr (x i) (y i) := rfl

/-- The conjunction of the four comparisons of two id windows is set exactly when the windows agree. -/
theorem match_bit (u v : Fin 4 → BitVec 32) :
    IntOp.andi (IntOp.andi (IntOp.andi (IntOp.cmpi .eq (u 0) (v 0)) (IntOp.cmpi .eq (u 1) (v 1))) (IntOp.cmpi .eq (u 2) (v 2)))
        (IntOp.cmpi .eq (u 3) (v 3)) = 1#1 ↔ ∀ k, u k = v k := by
  rw [and4_eq_one (fun k => IntOp.cmpi .eq (u k) (v k))]
  exact forall_congr' fun k => IntOp.cmpi_eq

/-- The blended term frequency at block row `p`, query window `q`. -/
theorem stored_termFreq (x0 x1 : Vec Ideal S2x256x768 .f32) (x3 x4 : Vec Ideal S2x256x4 .i32)
    (x5 : Vec Ideal S2x4x256 .i32) (x6 : Vec Ideal S2x1x256 .f32) (p : Fin 2) (q : Fin 256)
    (hT : ∀ (d : Fin 256) (k : Fin 4), x5 (ix3 p k d) = x4 (ix3 p d k)) :
    k0_pay6 (F := Ideal) x3 (k0_pay2 x3) (k0_pay3 x4) x0 x1 x5 x6 (ix3 p q (0 : Fin 1))
      = termFreq (fun h => x0 (ix3 p q h)) (fun d h => x1 (ix3 p d h)) (fun k => x3 (ix3 p q k)) (fun d k => x4 (ix3 p d k))
          (fun d => x6 (ix3 p (0 : Fin 1) d)) := by
  unfold k0_pay6 termFreq
  refine (cast_column _ _ p q).trans ((sum_documents _ _ _ _ p q).trans (Finset.sum_congr rfl fun d _ => ?_))
  simp only [mulf_apply, addf_apply, sitofp_apply, extui_apply, broadcast_apply, andi_apply, cmpi_apply]
  simp only [spread_documents, spread_queries, shapeCast_self]
  rw [id_column x3 0 (by decide), id_column x3 1 (by decide), id_column x3 2 (by decide), id_column x3 3 (by decide),
    id_row x5 0 (by decide), id_row x5 1 (by decide), id_row x5 2 (by decide), id_row x5 3 (by decide),
    hT d ⟨0, by decide⟩, hT d ⟨1, by decide⟩, hT d ⟨2, by decide⟩, hT d ⟨3, by decide⟩,
    real_of_bit, stored_overlap]
  refine congrArg₂ (· * ·) (congrArg₂ (· + ·) rfl (congrArg₂ (· * ·) ?_ rfl)) ?_
  · exact same_of_bit (fun k => x3 (ix3 p q k)) (fun k => x4 (ix3 p d k)) _
      (match_bit (fun k => x3 (ix3 p q k)) (fun k => x4 (ix3 p d k)))
  · unfold k0_pay5
    rw [shapeCast_self]

end Cert.KernelIdeal.Rows

end
-- ==== Proof.KernelRows.lean ====
/-
  The scalar the body stores, read at an index: at block row `p` it is the row's score — the sum over the query
  windows of the query weight times the saturated weight of that window's blended term frequency in a document of
  the row's length. (The stored matrix is read in the overlap module, which this module re-exports.)
-/
import proofs.«123404_j20572893348512_2_alg».proof.Proof.KernelTermFreq

noncomputable section

namespace Cert.KernelIdeal.Rows

open Idealize.ShloMosaic Idealize.ShloMosaic.ValueIdx Cert.KernelIdeal Cert.KernelIdeal.Gen Cert.Scoring

/-- The document length the body computes at block row `p`: the sum of the row of term frequencies. -/
theorem stored_docLen (x6 : Vec Ideal S2x1x256 .f32) (p : Fin 2) :
    shapeCast S2x1x1 (multiReduction .add [2] S2x1 (k0_pay5 (F := Ideal) x6) 0x00000000#32 reduces_S2x1x256_S2x1 (.inl rfl) rfl)
        shapeCasts_S2x1_S2x1x1 (ix3 p (0 : Fin 1) (0 : Fin 1))
      = docLen (fun d => x6 (ix3 p (0 : Fin 1) d)) := by
  unfold docLen
  refine (cast_scalar _ _ p).trans ((sum_row _ _ _ _ p).trans (Finset.sum_congr rfl fun d _ => ?_))
  unfold k0_pay5
  rw [shapeCast_self]

/-- The scalar the body stores, at block row `p`: the document ids enter the masks through `x4` and the exact match
    through the block `x5`, which holds the same ids transposed (`hT`). -/
theorem stored_score (x0 x1 : Vec Ideal S2x256x768 .f32) (x2 : Vec Ideal S2x256x1 .f32) (x3 x4 : Vec Ideal S2x256x4 .i32)
    (x5 : Vec Ideal S2x4x256 .i32) (x6 : Vec Ideal S2x1x256 .f32) (p : Fin 2)
    (hT : ∀ (d : Fin 256) (k : Fin 4), x5 (ix3 p k d) = x4 (ix3 p d k)) :
    k0_pay1 (F := Ideal) (k0_pay5 x6) (k0_pay6 x3 (k0_pay2 x3) (k0_pay3 x4) x0 x1 x5 x6) x2 (ix3 p (0 : Fin 1) (0 : Fin 1))
      = score (fun q h => x0 (ix3 p q h)) (fun d h => x1 (ix3 p d h)) (fun q k => x3 (ix3 p q k)) (fun d k => x4 (ix3 p d k))
          (fun d => x6 (ix3 p (0 : Fin 1) d)) (fun q => x2 (ix3 p q (0 : Fin 1))) := by
  unfold k0_pay1 score
  refine (cast_scalar _ _ p).trans ((sum_column _ _ _ _ p).trans (Finset.sum_congr rfl fun q _ => ?_))
  simp only [mulf_apply, addf_apply, divf_apply, broadcast_apply, shapeCast_self, spread_scalar]
  rw [stored_docLen x6 p, stored_termFreq x0 x1 x3 x4 x5 x6 p q hT]
  rfl

end Cert.KernelIdeal.Rows

end
-- ==== Proof.KernelRowsAt.lean ====
/-
  The body's two stored values over a block row that holds one batch row of the arrays: when block row `p` of each input
  block is batch row `b` of its array — the weights as a column, the document ids also transposed, the term frequencies
  as a row of reals — the stored matrix at `p` is the overlap matrix of batch row `b` and the stored scalar at `p` is
  the score of batch row `b`.
-/
import proofs.«123404_j20572893348512_2_alg».proof.Proof.KernelRows
import proofs.«123404_j20572893348512_2_alg».proof.Proof.Scoring
import Idealize.ShloMosaic.Lib.ValueIdx

noncomputable section

namespace Cert.KernelIdeal.Arrays

open Idealize.ShloMosaic Idealize.ShloMosaic.ValueIdx Cert.KernelIdeal Cert.KernelIdeal.Gen Cert.Scoring

/-- The stored matrix of a block row that holds batch row `b`. -/
theorem stored_overlap_at (x0 x1 : Vec Ideal S2x256x768 .f32) (x3 x4 : Vec Ideal S2x256x4 .i32)
    (A0 A1 : S64x256x768.Idx → EReal) (A3 A4 : S64x256x4.Idx → BitVec 32) (b : Fin 64) (p : Fin 2)
    (h0 : ∀ (q : Fin 256) (h : Fin 768), x0 (ix3 p q h) = A0 (ix3 b q h))
    (h1 : ∀ (d : Fin 256) (h : Fin 768), x1 (ix3 p d h) = A1 (ix3 b d h))
    (h3 : ∀ (q : Fin 256) (k : Fin 4), x3 (ix3 p q k) = A3 (ix3 b q k))
    (h4 : ∀ (d : Fin 256) (k : Fin 4), x4 (ix3 p d k) = A4 (ix3 b d k)) (q d : Fin 256) :
    k0_pay4 (F := Ideal) (k0_pay2 x3) (k0_pay3 x4) x0 x1 (ix3 p q d) = overlapAt A0 A1 A3 A4 b q d := by
  rw [Rows.stored_overlap]
  unfold overlapAt
  simp only [h0, h1, h3, h4]

/-- The stored scalar of a block row that holds batch row `b`. -/
theorem stored_score_at (x0 x1 : Vec Ideal S2x256x768 .f32) (x2 : Vec Ideal S2x256x1 .f32) (x3 x4 : Vec Ideal S2x256x4 .i32)
    (x5 : Vec Ideal S2x4x256 .i32) (x6 : Vec Ideal S2x1x256 .f32)
    (A0 A1 : S64x256x768.Idx → EReal) (A2 : S64x256.Idx → EReal) (A3 A4 : S64x256x4.Idx → BitVec 32)
    (A5 : S64x256.Idx → BitVec 32) (b : Fin 64) (p : Fin 2)
    (h0 : ∀ (q : Fin 256) (h : Fin 768), x0 (ix3 p q h) = A0 (ix3 b q h))
    (h1 : ∀ (d : Fin 256) (h : Fin 768), x1 (ix3 p d h) = A1 (ix3 b d h))
    (h2 : ∀ (q : Fin 256), x2 (ix3 p q (0 : Fin 1)) = A2 (ix2 b q))
    (h3 : ∀ (q : Fin 256) (k : Fin 4), x3 (ix3 p q k) = A3 (ix3 b q k))
    (h4 : ∀ (d : Fin 256) (k : Fin 4), x4 (ix3 p d k) = A4 (ix3 b d k))
    (h5 : ∀ (k : Fin 4) (d : Fin 256), x5 (ix3 p k d) = A4 (ix3 b d k))
    (h6 : ∀ (d : Fin 256), x6 (ix3 p (0 : Fin 1) d) = FloatOps.sitofp (F := Ideal) .f32 (A5 (ix2 b d))) :
    k0_pay1 (F := Ideal) (k0_pay5 x6) (k0_pay6 x3 (k0_pay2 x3) (k0_pay3 x4) x0 x1 x5 x6) x2 (ix3 p (0 : Fin 1) (0 : Fin 1))
      = scoreAt A0 A1 A2 A3 A4 A5 b := by
  rw [Rows.stored_score x0 x1 x2 x3 x4 x5 x6 p (fun d k => (h5 k d).trans (h4 d k).symm)]
  unfold scoreAt
  simp only [h0, h1, h2, h3, h4, h6]

end Cert.KernelIdeal.Arrays

end
-- ==== Proof.KernelOverlapArray.lean ====
/-
  The overlap matrices: what each grid point writes back to the result array is its block of the overlap matrix of
  the argument arrays, the blocks cover the array, and so the array ends holding that matrix.
-/
import proofs.«123404_j20572893348512_2_alg».proof.Proof.Gen.KernelIdeal.Frame
import proofs.«123404_j20572893348512_2_alg».proof.Proof.KernelBlocks
import proofs.«123404_j20572893348512_2_alg».proof.Proof.KernelRowsAt
import proofs.«123404_j20572893348512_2_alg».proof.Proof.Scoring
import Idealize.ShloMosaic.Lib.ValueIdx
import Idealize.ShloMosaic.Lib.Pipeline.Value

noncomputable section

namespace Cert.KernelIdeal.Arrays

open Idealize.ShloMosaic Idealize.ShloMosaic.TcCoe Idealize.ShloMosaic.ValueIdx Idealize.SL.Sem Cert.KernelIdeal Cert.KernelIdeal.Gen Cert.Scoring
open Idealize.ShloMosaic.Pipeline (Dat)

variable (m : (ℓ : Loc nD τ sig) → Buf (Elt Ideal) ℓ)

/-- The overlap matrix of the argument arrays on core `c`. -/
abbrev overlapOf (c : Dev nD) : S64x256x256.Idx → EReal :=
  overlapArr (m ((c : Thread nD τ).loc main_arg0)) (m ((c : Thread nD τ).loc main_arg1))
    (m ((c : Thread nD τ).loc main_arg3)) (m ((c : Thread nD τ).loc main_arg4))

/-- What point `t` writes back to the matrix array is block `t` of the overlap matrix. -/
theorem overlap_flushed (c : Dev nD) (t : Fin cfg0.N) :
    (dats m 0 c).flushed 7 t = ((cfg0.win 7).blk t).view.read (Elt Ideal) (overlapOf m c) := by
  show (cfg0.win 7).cut (grid0.coords t) ((dats m 0 c).after 7 t) = _
  rw [after0_7]
  unfold out0_7
  rw [View.canon_unit_zero zero_offsets]
  simp only [View.ld_unit_zero (S := S2x256x4) zero_offsets, View.ld_unit_zero (S := S2x256x768) zero_offsets]
  refine funext fun (j : S2x256x256.Idx) => ?_
  obtain ⟨p, q, d, rfl⟩ : ∃ (p : Fin 2) (q d : Fin 256), j = ix3 p q d := ⟨j 0, j 1, j 2, eq_ix3 j⟩
  refine Eq.trans ?_ (blk7_apply (overlapOf m c) t p q d).symm
  exact stored_overlap_at (iblk m c 0 t) (iblk m c 1 t) (iblk m c 3 t) (iblk m c 4 t)
    (m ((c : Thread nD τ).loc main_arg0)) (m ((c : Thread nD τ).loc main_arg1))
    (m ((c : Thread nD τ).loc main_arg3)) (m ((c : Thread nD τ).loc main_arg4)) (row t p) p
    (query_block m c t p) (doc_block m c t p) (query_ids_block m c t p) (doc_ids_block m c t p) q d

/-- An index of the matrix array is in point `t`'s block iff each coordinate is in the block's range on its axis. -/
theorem mem_blk7 (t : Fin cfg0.N) (i : S64x256x256.Idx) :
    i ∈ ((cfg0.win 7).blk t).view.set ↔ ∀ a : Fin 3, win0_7.index t a * S2x256x256.size a ≤ (i a).val
      ∧ (i a).val < win0_7.index t a * S2x256x256.size a + S2x256x256.size a := by
  show i ∈ ((View.whole main_v4_0).slice (win0_7.rect t)).set ↔ _
  rw [View.set_slice_whole, Rect.mem_set_unit]
  exact Iff.rfl

/-- Batch row `b` is in the block of point `b / 2`: the blocks cover the matrix array. -/
theorem overlap_cover (i : S64x256x256.Idx) :
    ∃ t : Fin cfg0.N, (cfg0.win 7).flush t = true ∧ i ∈ ((cfg0.win 7).blk t).view.set := by
  have hi0 : (i 0).val < 64 := (i 0).isLt
  have hi1 : (i 1).val < 256 := (i 1).isLt
  have hi2 : (i 2).val < 256 := (i 2).isLt
  obtain ⟨t, ht⟩ : ∃ t : Fin cfg0.N, t.val = (i 0).val / 2 := ⟨⟨(i 0).val / 2, by rw [show cfg0.N = 32 from N_0]; omega⟩, rfl⟩
  obtain ⟨e0, e1, e2⟩ := (index_facts t).2.2.2.2.2.2.2.1
  refine ⟨t, flush0_7 t, ?_⟩
  rw [mem_blk7]
  intro a
  match a with
  | ⟨0, _⟩ => show win0_7.index t (0 : Fin 3) * 2 ≤ (i 0).val ∧ (i 0).val < win0_7.index t (0 : Fin 3) * 2 + 2; omega
  | ⟨1, _⟩ => show win0_7.index t (1 : Fin 3) * 256 ≤ (i 1).val ∧ (i 1).val < win0_7.index t (1 : Fin 3) * 256 + 256; omega
  | ⟨2, _⟩ => show win0_7.index t (2 : Fin 3) * 256 ≤ (i 2).val ∧ (i 2).val < win0_7.index t (2 : Fin 3) * 256 + 256; omega

/-- The matrix array after the run is the overlap matrix of the argument arrays. -/
theorem overlap_final (c : Dev nD) : (dats m 0 c).arrAt 7 cfg0.N = overlapOf m c :=
  (dats m 0 c).arrAt_eq_of_cover 7 (overlapOf m c) (fun t _ => overlap_flushed m c t) overlap_cover

end Cert.KernelIdeal.Arrays

end
-- ==== Proof.KernelScoreArray.lean ====
/-
  The scores: what each grid point writes back to the score array is its block of the scores of the argument arrays
  (held as a column of unit blocks), the blocks cover the array, and so the array ends holding the scores.
-/
import proofs.«123404_j20572893348512_2_alg».proof.Proof.Gen.KernelIdeal.Frame
import proofs.«123404_j20572893348512_2_alg».proof.Proof.KernelBlocks
import proofs.«123404_j20572893348512_2_alg».proof.Proof.KernelRowsAt
import proofs.«123404_j20572893348512_2_alg».proof.Proof.Scoring
import Idealize.ShloMosaic.Lib.ValueIdx
import Idealize.ShloMosaic.Lib.Pipeline.Value

noncomputable section

namespace Cert.KernelIdeal.Arrays

open Idealize.ShloMosaic Idealize.ShloMosaic.TcCoe Idealize.ShloMosaic.ValueIdx Idealize.SL.Sem Cert.KernelIdeal Cert.KernelIdeal.Gen Cert.Scoring
open Idealize.ShloMosaic.Pipeline (Dat)

variable (m : (ℓ : Loc nD τ sig) → Buf (Elt Ideal) ℓ)

/-- The scores of the argument arrays on core `c`, one to a batch row, with two unit axes. -/
abbrev scoreColOf (c : Dev nD) : S64x1x1.Idx → EReal := fun i =>
  scoreAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (i 0)

/-- What point `t` writes back to the score array is block `t` of the scores. -/
theorem score_flushed (c : Dev nD) (t : Fin cfg0.N) :
    (dats m 0 c).flushed 8 t = ((cfg0.win 8).blk t).view.read (Elt Ideal) (scoreColOf m c) := by
  show (cfg0.win 8).cut (grid0.coords t) ((dats m 0 c).after 8 t) = _
  rw [after0_8]
  unfold out0_8
  rw [View.canon_unit_zero zero_offsets]
  simp only [View.ld_unit_zero (S := S2x256x4) zero_offsets, View.ld_unit_zero (S := S2x256x768) zero_offsets,
    View.ld_unit_zero (S := S2x4x256) zero_offsets, View.ld_unit_zero (S := S2x1x256) zero_offsets,
    View.ld_unit_zero (S := S2x256x1) zero_offsets]
  refine funext fun (j : S2x1x1.Idx) => ?_
  obtain ⟨p, z, z', rfl⟩ : ∃ (p : Fin 2) (z z' : Fin 1), j = ix3 p z z' := ⟨j 0, j 1, j 2, eq_ix3 j⟩
  obtain rfl : z = 0 := Subsingleton.elim _ _
  obtain rfl : z' = 0 := Subsingleton.elim _ _
  refine Eq.trans ?_ (blk8_apply (scoreColOf m c) t p 0 0).symm
  exact stored_score_at (iblk m c 0 t) (iblk m c 1 t) (iblk m c 2 t) (iblk m c 3 t) (iblk m c 4 t) (iblk m c 5 t) (iblk m c 6 t)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (row t p) p
    (query_block m c t p) (doc_block m c t p) (fun q => weight_block m c t p q 0) (query_ids_block m c t p) (doc_ids_block m c t p)
    (doc_ids_t_block m c t p) (fun d => freq_block m c t p 0 d)

/-- An index of the score array is in point `t`'s block iff each coordinate is in the block's range on its axis. -/
theorem mem_blk8 (t : Fin cfg0.N) (i : S64x1x1.Idx) :
    i ∈ ((cfg0.win 8).blk t).view.set ↔ ∀ a : Fin 3, win0_8.index t a * S2x1x1.size a ≤ (i a).val
      ∧ (i a).val < win0_8.index t a * S2x1x1.size a + S2x1x1.size a := by
  show i ∈ ((View.whole main_v4_1).slice (win0_8.rect t)).set ↔ _
  rw [View.set_slice_whole, Rect.mem_set_unit]
  exact Iff.rfl

/-- Batch row `b` is in the block of point `b / 2`: the blocks cover the score array. -/
theorem score_cover (i : S64x1x1.Idx) :
    ∃ t : Fin cfg0.N, (cfg0.win 8).flush t = true ∧ i ∈ ((cfg0.win 8).blk t).view.set := by
  have hi0 : (i 0).val < 64 := (i 0).isLt
  have hi1 : (i 1).val < 1 := (i 1).isLt
  have hi2 : (i 2).val < 1 := (i 2).isLt
  obtain ⟨t, ht⟩ : ∃ t : Fin cfg0.N, t.val = (i 0).val / 2 := ⟨⟨(i 0).val / 2, by rw [show cfg0.N = 32 from N_0]; omega⟩, rfl⟩
  obtain ⟨e0, e1, e2⟩ := (index_facts t).2.2.2.2.2.2.2.2
  refine ⟨t, flush0_8 t, ?_⟩
  rw [mem_blk8]
  intro a
  match a with
  | ⟨0, _⟩ => show win0_8.index t (0 : Fin 3) * 2 ≤ (i 0).val ∧ (i 0).val < win0_8.index t (0 : Fin 3) * 2 + 2; omega
  | ⟨1, _⟩ => show win0_8.index t (1 : Fin 3) * 1 ≤ (i 1).val ∧ (i 1).val < win0_8.index t (1 : Fin 3) * 1 + 1; omega
  | ⟨2, _⟩ => show win0_8.index t (2 : Fin 3) * 1 ≤ (i 2).val ∧ (i 2).val < win0_8.index t (2 : Fin 3) * 1 + 1; omega

/-- The score array after the run holds the scores of the argument arrays. -/
theorem score_final (c : Dev nD) : (dats m 0 c).arrAt 8 cfg0.N = scoreColOf m c :=
  (dats m 0 c).arrAt_eq_of_cover 8 (scoreColOf m c) (fun t _ => score_flushed m c t) score_cover

end Cert.KernelIdeal.Arrays

end
-- ==== Proof.KernelRun.lean ====
/-
  The kernel's run, read: after every execution the score array, with its two unit axes dropped by the host, holds the
  scores of the argument arrays, the matrix array holds their overlap matrices, and the six argument arrays are unchanged.
-/
import proofs.«123404_j20572893348512_2_alg».proof.Proof.Gen.KernelIdeal.Frame
import proofs.«123404_j20572893348512_2_alg».proof.Proof.KernelOverlapArray
import proofs.«123404_j20572893348512_2_alg».proof.Proof.KernelScoreArray
import proofs.«123404_j20572893348512_2_alg».proof.Proof.Scoring
import Idealize.ShloMosaic.Lib.ValueIdx
import Idealize.ShloMosaic.Lib.Pipeline.Value
import Idealize.ShloMosaic.Lib.Tactic

noncomputable section

namespace Cert.KernelIdeal.Arrays

open Idealize.ShloMosaic Idealize.ShloMosaic.TcCoe Idealize.SL.Sem Cert.KernelIdeal Cert.KernelIdeal.Gen Cert.Scoring
open Idealize.ShloMosaic.ValueIdx
open Idealize.ShloMosaic.Pipeline (Dat)

/-- Dropping two unit axes: the flat array at `b` is the column at `(b, 0, 0)`. -/
theorem drop_units_apply (G : S64x1x1.Idx → EReal) (b : Fin 64) :
    shapeCast S64 G shapeCasts_S64x1x1_S64 (ix1 b) = G (ix3 b (0 : Fin 1) (0 : Fin 1)) := by
  refine shapeCast_apply G shapeCasts_S64x1x1_S64 (ix1 b) (ix3 b (0 : Fin 1) (0 : Fin 1)) ?_
  rw [Shape.rowMajor_val_three, Shape.rowMajor_val_one]
  show (b.val * 1 + 0) * 1 + 0 = b.val
  omega

/-- The host's last operation reshapes the score array the region left: its result holds the scores, one to a batch row. -/
theorem scores_tail (m : (ℓ : Loc nD τ sig) → Buf (Elt Ideal) ℓ) (c : Dev nD) :
    (Pipeline.afterTail₀ cfgs (dats m) 0 (V0 m) [hostOps1] c main_v5 : S64.Idx → EReal)
      = scoreArr (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  have hA : Pipeline.withArrays (cfgs 0).spec c (V0 m c) (fun w => (dats m 0 c).arrAt w (cfgs 0).N) (Proc.tc.devRef main_v4_1)
      = scoreColOf m c :=
    (Pipeline.withArrays_arr spec0 launch0.win.arr_inj c _ _ 8).trans (score_final m c)
  unfold Pipeline.afterTail₀
  show StableHlo.after hostOps1 _ (Proc.devRef .tc main_v5) = _
  after_results
  funext i
  obtain ⟨b, rfl⟩ : ∃ b : Fin 64, i = ix1 b := ⟨i 0, eq_ix1 i⟩
  show shapeCast S64 (Pipeline.withArrays (cfgs 0).spec c (V0 m c) (fun w => (dats m 0 c).arrAt w (cfgs 0).N) (Proc.tc.devRef main_v4_1))
    shapeCasts_S64x1x1_S64 (ix1 b) = _
  rw [hA]
  exact drop_units_apply (scoreColOf m c) b

/-- The run of the kernel's program at the ideal instance, with both results named by the scoring layer's functions of
    the argument arrays. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5)
          = scoreArr (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
      ∧ r.2.mem ((c.tc : Thread nD τ).loc main_v4_0)
          = overlapArr (m ((c.tc : Thread nD τ).loc main_arg0)) (m ((c.tc : Thread nD τ).loc main_arg1))
              (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨((h c).2 main_v5 (Pipeline.mem_restRefs_of main_v5 (by decide) (by decide))).trans (scores_tail m c),
      ((h c).1 7).trans (overlap_final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c)⟩)
    (run_main m ρ)

end Cert.KernelIdeal.Arrays

end
-- ==== Proof.lean ====
/-
  The scoring layer's kernel against its reference, on the extended reals.

  Both programs compute, for each of 64 batch rows, the matrix of overlaps between the row's 256 query windows and
  256 document windows — the inner product over 768 features of the two rows, each scaled by its null-window mask —
  and the row's score: the sum over query windows of the query weight times a saturated function of the window's
  blended term frequency (overlap and exact id match, weighted by the document's term frequencies) and of the
  document's length (Proof/Scoring.lean states these functions). The kernel works on blocks of two batch rows per grid
  point, compares ids through a transposed copy of the document ids and folds its four id comparisons by hand; the
  reference reduces over whole arrays. Operation by operation and word by word the two arrangements are the same sums
  of the same products, so no law of the extended reals beyond re-indexing is needed and the finiteness of the inputs
  is never used.

  The kernel side: the body's two stored values read at an index (Proof/KernelRows.lean and the modules under it), the
  blocks assembled into the whole arrays and the host operations around the region (Proof/KernelRun.lean and the modules
  under it). The reference side: its generated run read operation by operation (Proof/RefRows.lean and the modules under
  it). The three frames are the generated ones; the ideal pass rewrote nothing.
-/
import proofs.«123404_j20572893348512_2_alg».proof.Defs
import proofs.«123404_j20572893348512_2_alg».proof.Proof.Gen.Kernel
import proofs.«123404_j20572893348512_2_alg».proof.Proof.Gen.Kernel.Skeleton
import proofs.«123404_j20572893348512_2_alg».proof.Proof.Gen.Kernel.Launch
import proofs.«123404_j20572893348512_2_alg».proof.Proof.Gen.Kernel.Points
import proofs.«123404_j20572893348512_2_alg».proof.Proof.Gen.Kernel.Frame
import proofs.«123404_j20572893348512_2_alg».proof.Proof.Gen.KernelIdeal
import proofs.«123404_j20572893348512_2_alg».proof.Proof.Gen.KernelIdeal.Skeleton
import proofs.«123404_j20572893348512_2_alg».proof.Proof.Gen.KernelIdeal.Launch
import proofs.«123404_j20572893348512_2_alg».proof.Proof.Gen.KernelIdeal.Points
import proofs.«123404_j20572893348512_2_alg».proof.Proof.Gen.KernelIdeal.Frame
import proofs.«123404_j20572893348512_2_alg».proof.Proof.Gen.ReferenceIdeal
import proofs.«123404_j20572893348512_2_alg».proof.Proof.Gen.ReferenceIdeal.Run
import proofs.«123404_j20572893348512_2_alg».proof.Proof.Gen.ReferenceIdeal.Read
import proofs.«123404_j20572893348512_2_alg».proof.Proof.Gen.Pre_finite_inputs
import proofs.«123404_j20572893348512_2_alg».proof.Proof.RefRows
import proofs.«123404_j20572893348512_2_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel's frame: generated whole. -/
theorem frame_kernel : Cert.frame_Kernel := fun m ρ _ => Cert.Kernel.Gen.frame m ρ

/-- The idealized kernel's frame: generated whole. -/
theorem frame_kernelIdeal : Cert.frame_KernelIdeal := fun m ρ _ => Cert.KernelIdeal.Gen.frame m ρ

/-- The reference's frame: its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote nothing, so there is nothing to preserve. -/
theorem preserves : Cert.preserves_Kernel_KernelIdeal := trivial

/-- On the extended reals both programs end with the scores at `scoreArr` and the overlap matrix at `overlapArr` of
    the argument arrays: the kernel by its run read block by block, the reference by its run read operation by
    operation; the arguments agree, so the results do. -/
theorem algebraic : Cert.algebraic_KernelIdeal_ReferenceIdeal := by
  intro m ρ m' ρ' _ hagree
  refine ⟨_, _, Cert.KernelIdeal.Arrays.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v53_eq, Cert.ReferenceIdeal.Rows.ref_score_arr,
      (hagree c).1, (hagree c).2.1, (hagree c).2.2.1, (hagree c).2.2.2.1, (hagree c).2.2.2.2.1, (hagree c).2.2.2.2.2]
  · rw [(h c).2.1, Cert.ReferenceIdeal.Read.val_main_v16_eq, Cert.ReferenceIdeal.Rows.ref_overlap_arr,
      (hagree c).1, (hagree c).2.1, (hagree c).2.2.2.1, (hagree c).2.2.2.2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
